-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x32 : Shape := ⟨2, ![262144, 32]⟩
abbrev S32x80 : Shape := ⟨2, ![32, 80]⟩
abbrev S1x80 : Shape := ⟨2, ![1, 80]⟩
abbrev S64x16 : Shape := ⟨2, ![64, 16]⟩
abbrev S1x16 : Shape := ⟨2, ![1, 16]⟩
abbrev S_ : Shape := ⟨0, ![]⟩

class Facts : Prop where
  bcast_S_S262144x32 : S_.BroadcastsInDim S262144x32 (![] : Fin 0 → Fin S262144x32.rank)
  reducesTo_S262144x32_S_d0_1 : S262144x32.ReducesTo [0, 1] S_
  h_S_ : 0 < S_.numel
  bcast_S_S32x80 : S_.BroadcastsInDim S32x80 (![] : Fin 0 → Fin S32x80.rank)
  reducesTo_S32x80_S_d0_1 : S32x80.ReducesTo [0, 1] S_
  bcast_S_S1x80 : S_.BroadcastsInDim S1x80 (![] : Fin 0 → Fin S1x80.rank)
  reducesTo_S1x80_S_d0_1 : S1x80.ReducesTo [0, 1] S_
  bcast_S_S64x16 : S_.BroadcastsInDim S64x16 (![] : Fin 0 → Fin S64x16.rank)
  reducesTo_S64x16_S_d0_1 : S64x16.ReducesTo [0, 1] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_arg4 : FVec F S1x16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S1x16 .f32 := Host.absf main_arg4
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  main_v23

def fn {F : FTy → Type} [FloatOps F] (main_arg0 : FVec F S262144x32 .f32) (main_arg1 : FVec F S32x80 .f32) (main_arg2 : FVec F S1x80 .f32) (main_arg3 : FVec F S64x16 .f32) (main_arg4 : FVec F S1x16 .f32) : IVec S_ 1 :=
  let main_v0 : FVec F S262144x32 .f32 := Host.absf main_arg0
  let main_cst : FVec F S_ .f32 := constant S_ .f32 0x7F800000#32
  let main_v1 : FVec F S262144x32 .f32 := broadcastInDim S262144x32 ![] bcast_S_S262144x32 main_cst
  let main_v2 : IVec S262144x32 1 := cmpf .olt main_v0 main_v1
  let main_c : IVec S_ 1 := constantI S_ 1 1#1
  let main_v3 : IVec S_ 1 := (fun x v => Host.reduce IntOp.andi x v reducesTo_S262144x32_S_d0_1 h_S_) main_v2 main_c
  let main_v4 : FVec F S32x80 .f32 := Host.absf main_arg1
  let main_cst_0 : FVec F S_ .f32 := constant S_ .f32 0x7F800000#32
  let main_v5 : FVec F S32x80 .f32 := broadcastInDim S32x80 ![] bcast_S_S32x80 main_cst_0
  let main_v6 : IVec S32x80 1 := cmpf .olt main_v4 main_v5
  let main_c_1 : IVec S_ 1 := constantI S_ 1 1#1
  let main_v7 : IVec S_ 1 := (fun x v => Host.reduce IntOp.andi x v reducesTo_S32x80_S_d0_1 h_S_) main_v6 main_c_1
  let main_v8 : IVec S_ 1 := andi main_v3 main_v7
  let main_v9 : FVec F S1x80 .f32 := Host.absf main_arg2
  let main_cst_2 : FVec F S_ .f32 := constant S_ .f32 0x7F800000#32
  let main_v10 : FVec F S1x80 .f32 := broadcastInDim S1x80 ![] bcast_S_S1x80 main_cst_2
  let main_v11 : IVec S1x80 1 := cmpf .olt main_v9 main_v10
  let main_c_3 : IVec S_ 1 := constantI S_ 1 1#1
  let main_v12 : IVec S_ 1 := (fun x v => Host.reduce IntOp.andi x v reducesTo_S1x80_S_d0_1 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_v13 main_v16
-- ==== Kernel.lean ====
abbrev S262144x32 : Shape := ⟨2, ![262144, 32]⟩
abbrev S32x80 : Shape := ⟨2, ![32, 80]⟩
abbrev S1x80 : Shape := ⟨2, ![1, 80]⟩
abbrev S64x16 : Shape := ⟨2, ![64, 16]⟩
abbrev S1x16 : Shape := ⟨2, ![1, 16]⟩
abbrev S8x8 : Shape := ⟨2, ![8, 8]⟩
abbrev S_ : Shape := ⟨0, ![]⟩
abbrev S32x64 : Shape := ⟨2, ![32, 64]⟩
abbrev S8x1x8x1 : Shape := ⟨4, ![8, 1, 8, 1]⟩
abbrev S1x32x1x64 : Shape := ⟨4, ![1, 32, 1, 64]⟩
abbrev S8x32x8x64 : Shape := ⟨4, ![8, 32, 8, 64]⟩
abbrev S256x512 : Shape := ⟨2, ![256, 512]⟩
abbrev S32x16 : Shape := ⟨2, ![32, 16]⟩
abbrev S1x32x1x16 : Shape := ⟨4, ![1, 32, 1, 16]⟩
abbrev S8x32x8x16 : Shape := ⟨4, ![8, 32, 8, 16]⟩
abbrev S256x128 : Shape := ⟨2, ![256, 128]⟩
abbrev S256x640 : Shape := ⟨2, ![256, 640]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1x1x16 : Shape := ⟨4, ![1, 1, 1, 16]⟩
abbrev S1x1x8x16 : Shape := ⟨4, ![1, 1, 8, 16]⟩
abbrev S1x128 : Shape := ⟨2, ![1, 128]⟩
abbrev S1x640 : Shape := ⟨2, ![1, 640]⟩
abbrev S1x64x1x16 : Shape := ⟨4, ![1, 64, 1, 16]⟩
abbrev S8x64x8x16 : Shape := ⟨4, ![8, 64, 8, 16]⟩
abbrev S512x128 : Shape := ⟨2, ![512, 128]⟩
abbrev S32768x256 : Shape := ⟨2, ![32768, 256]⟩
abbrev S32768x512 : Shape := ⟨2, ![32768, 512]⟩
abbrev S32768x128 : Shape := ⟨2, ![32768, 128]⟩
abbrev S2048x256 : Shape := ⟨2, ![2048, 256]⟩
abbrev S2048x512 : Shape := ⟨2, ![2048, 512]⟩
abbrev S2048x128 : Shape := ⟨2, ![2048, 128]⟩
abbrev S2048x640 : Shape := ⟨2, ![2048, 640]⟩
abbrev S262144x64 : Shape := ⟨2, ![262144, 64]⟩
abbrev S262144x16 : Shape := ⟨2, ![262144, 16]⟩

abbrev nBuf : Space → Nat
  | .hbm => 52
  | .vmem => 12
  | .smem => 0
  | _ => 0

abbrev bufTy : (tb : Table) → Fin (tcTables nBuf tb) → BufTy
  | .hbm, ⟨0, _⟩ => ⟨S262144x32, .f32⟩
  | .hbm, ⟨1, _⟩ => ⟨S32x80, .f32⟩
  | .hbm, ⟨2, _⟩ => ⟨S1x80, .f32⟩
  | .hbm, ⟨3, _⟩ => ⟨S64x16, .f32⟩
  | .hbm, ⟨4, _⟩ => ⟨S1x16, .f32⟩
  | .hbm, ⟨5, _⟩ => ⟨S8x8, .i32⟩
  | .hbm, ⟨6, _⟩ => ⟨S8x8, .i32⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i1⟩
  | .hbm, ⟨11, _⟩ => ⟨S8x8, .f32⟩
  | .hbm, ⟨12, _⟩ => ⟨S32x64, .f32⟩
  | .hbm, ⟨13, _⟩ => ⟨S8x1x8x1, .f32⟩
  | .hbm, ⟨14, _⟩ => ⟨S1x32x1x64, .f32⟩
  | .hbm, ⟨15, _⟩ => ⟨S8x32x8x64, .f32⟩
  | .hbm, ⟨16, _⟩ => ⟨S8x32x8x64, .f32⟩
  | .hbm, ⟨17, _⟩ => ⟨S8x32x8x64, .f32⟩
  | .hbm, ⟨18, _⟩ => ⟨S256x512, .f32⟩
  | .hbm, ⟨19, _⟩ => ⟨S32x16, .f32⟩
  | .hbm, ⟨20, _⟩ => ⟨S8x1x8x1, .f32⟩
  | .hbm, ⟨21, _⟩ => ⟨S1x32x1x16, .f32⟩
  | .hbm, ⟨22, _⟩ => ⟨S8x32x8x16, .f32⟩
  | .hbm, ⟨23, _⟩ => ⟨S8x32x8x16, .f32⟩
  | .hbm, ⟨24, _⟩ => ⟨S8x32x8x16, .f32⟩
  | .hbm, ⟨25, _⟩ => ⟨S256x128, .f32⟩
  | .hbm, ⟨26, _⟩ => ⟨S256x640, .f32⟩
  | .hbm, ⟨27, _⟩ => ⟨S1x64, .f32⟩
  | .hbm, ⟨28, _⟩ => ⟨S1x1x1x64, .f32⟩
  | .hbm, ⟨29, _⟩ => ⟨S1x1x8x64, .f32⟩
  | .hbm, ⟨30, _⟩ => ⟨S1x512, .f32⟩
  | .hbm, ⟨31, _⟩ => ⟨S1x16, .f32⟩
  | .hbm, ⟨32, _⟩ => ⟨S1x1x1x16, .f32⟩
  | .hbm, ⟨33, _⟩ => ⟨S1x1x8x16, .f32⟩
  | .hbm, ⟨34, _⟩ => ⟨S1x128, .f32⟩
  | .hbm, ⟨35, _⟩ => ⟨S1x640, .f32⟩
  | .hbm, ⟨36, _⟩ => ⟨S8x1x8x1, .f32⟩
  | .hbm, ⟨37, _⟩ => ⟨S1x64x1x16, .f32⟩
  | .hbm, ⟨38, _⟩ => ⟨S8x64x8x16, .f32⟩
  | .hbm, ⟨39, _⟩ => ⟨S8x64x8x16, .f32⟩
  | .hbm, ⟨40, _⟩ => ⟨S8x64x8x16, .f32⟩
  | .hbm, ⟨41, _⟩ => ⟨S512x128, .f32⟩
  | .hbm, ⟨42, _⟩ => ⟨S1x1x1x16, .f32⟩
  | .hbm, ⟨43, _⟩ => ⟨S1x1x8x16, .f32⟩
  | .hbm, ⟨44, _⟩ => ⟨S1x128, .f32⟩
  | .hbm, ⟨45, _⟩ => ⟨S32768x256, .f32⟩
  | .hbm, ⟨46, _⟩ => ⟨S32768x512, .f32⟩
  | .hbm, ⟨47, _⟩ => ⟨S32768x128, .f32⟩
  | .hbm, ⟨48, _⟩ => ⟨S32768x128, .f32⟩
  | .hbm, ⟨49, _⟩ => ⟨S262144x64, .f32⟩
  | .hbm, ⟨50, _⟩ => ⟨S262144x16, .f32⟩
  | .hbm, ⟨51, _⟩ => ⟨S262144x16, .f32⟩
  | .local _ .vmem, ⟨0, _⟩ => ⟨S2048x256, .f32⟩
  | .local _ .vmem, ⟨1, _⟩ => ⟨S2048x256, .f32⟩
  | .local _ .vmem, ⟨2, _⟩ => ⟨S256x640, .f32⟩
  | .local _ .vmem, ⟨3, _⟩ => ⟨S1x640, .f32⟩
  | .local _ .vmem, ⟨4, _⟩ => ⟨S512x128, .f32⟩
  | .local _ .vmem, ⟨5, _⟩ => ⟨S1x128, .f32⟩
  | .local _ .vmem, ⟨6, _⟩ => ⟨S2048x512, .f32⟩
  | .local _ .vmem, ⟨7, _⟩ => ⟨S2048x512, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | _, _ => ⟨S262144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25_0 : Ref sig .tc := ⟨.hbm, 46, rfl⟩
abbrev main_v25_1 : Ref sig .tc := ⟨.hbm, 47, rfl⟩
abbrev main_v25_2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S8x8 : S_.BroadcastsInDim S8x8 (![] : Fin 0 → Fin S8x8.rank)
  slices_S32x80_S32x64_0_0 : S32x80.Slices ![0, 0] S32x64
  bcast_S8x8_S8x1x8x1_0_2 : S8x8.BroadcastsInDim S8x1x8x1 (![0, 2] : Fin 2 → Fin S8x1x8x1.rank)
  bcast_S32x64_S1x32x1x64_1_3 : S32x64.BroadcastsInDim S1x32x1x64 (![1, 3] : Fin 2 → Fin S1x32x1x64.rank)
  bcast_S8x1x8x1_S8x32x8x64_0_1_2_3 : S8x1x8x1.BroadcastsInDim S8x32x8x64 (![0, 1, 2, 3] : Fin 4 → Fin S8x32x8x64.rank)
  bcast_S1x32x1x64_S8x32x8x64_0_1_2_3 : S1x32x1x64.BroadcastsInDim S8x32x8x64 (![0, 1, 2, 3] : Fin 4 → Fin S8x32x8x64.rank)
  shapeCasts_S8x32x8x64_S256x512 : S8x32x8x64.ShapeCasts S256x512
  slices_S32x80_S32x16_0_64 : S32x80.Slices ![0, 64] S32x16
  bcast_S32x16_S1x32x1x16_1_3 : S32x16.BroadcastsInDim S1x32x1x16 (![1, 3] : Fin 2 → Fin S1x32x1x16.rank)
  bcast_S8x1x8x1_S8x32x8x16_0_1_2_3 : S8x1x8x1.BroadcastsInDim S8x32x8x16 (![0, 1, 2, 3] : Fin 4 → Fin S8x32x8x16.rank)
  bcast_S1x32x1x16_S8x32x8x16_0_1_2_3 : S1x32x1x16.BroadcastsInDim S8x32x8x16 (![0, 1, 2, 3] : Fin 4 → Fin S8x32x8x16.rank)
  shapeCasts_S8x32x8x16_S256x128 : S8x32x8x16.ShapeCasts S256x128
  concatenates_S256x512_S256x128_S256x640_d1 : Shape.Concatenates [S256x512, S256x128] S256x640 1
  slices_S1x80_S1x64_0_0 : S1x80.Slices ![0, 0] S1x64
  shapeCasts_S1x64_S1x1x1x64 : S1x64.ShapeCasts S1x1x1x64
  bcast_S1x1x1x64_S1x1x8x64_0_1_2_3 : S1x1x1x64.BroadcastsInDim S1x1x8x64 (![0, 1, 2, 3] : Fin 4 → Fin S1x1x8x64.rank)
  shapeCasts_S1x1x8x64_S1x512 : S1x1x8x64.ShapeCasts S1x512
  slices_S1x80_S1x16_0_64 : S1x80.Slices ![0, 64] S1x16
  shapeCasts_S1x16_S1x1x1x16 : S1x16.ShapeCasts S1x1x1x16
  bcast_S1x1x1x16_S1x1x8x16_0_1_2_3 : S1x1x1x16.BroadcastsInDim S1x1x8x16 (![0, 1, 2, 3] : Fin 4 → Fin S1x1x8x16.rank)
  shapeCasts_S1x1x8x16_S1x128 : S1x1x8x16.ShapeCasts S1x128
  concatenates_S1x512_S1x128_S1x640_d1 : Shape.Concatenates [S1x512, S1x128] S1x640 1
  bcast_S64x16_S1x64x1x16_1_3 : S64x16.BroadcastsInDim S1x64x1x16 (![1, 3] : Fin 2 → Fin S1x64x1x16.rank)
  bcast_S8x1x8x1_S8x64x8x16_0_1_2_3 : S8x1x8x1.BroadcastsInDim S8x64x8x16 (![0, 1, 2, 3] : Fin 4 → Fin S8x64x8x16.rank)
  bcast_S1x64x1x16_S8x64x8x16_0_1_2_3 : S1x64x1x16.BroadcastsInDim S8x64x8x16 (![0, 1, 2, 3] : Fin 4 → Fin S8x64x8x16.rank)
  shapeCasts_S8x64x8x16_S512x128 : S8x64x8x16.ShapeCasts S512x128
  shapeCasts_S262144x32_S32768x256 : S262144x32.ShapeCasts S32768x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x640_S256x640_0_0 : ∀ a, (![0, 0] : Fin 2 → Nat) a + S256x640.size a ≤ S256x640.size a
  h_S256x640 : 0 < S256x640.numel
  shapeCasts_S256x640_S256x640 : S256x640.ShapeCasts S256x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S2048x640 : S1x640.Broadcasts S2048x640
  slices_S2048x640_o0_0_S2048x512 : S2048x640.Slices ![0, 0] S2048x512
  inb_S2048x512_S2048x512_0_0 : ∀ a, (![0, 0] : Fin 2 → Nat) a + S2048x512.size a ≤ S2048x512.size a
  h_S2048x512 : 0 < S2048x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  slices_S2048x640_o0_512_S2048x128 : S2048x640.Slices ![0, 512] S2048x128
  shapeCasts_S32768x512_S262144x64 : S32768x512.ShapeCasts S262144x64
  shapeCasts_S32768x128_S262144x16 : S32768x128.ShapeCasts S262144x16
  dot_S2048x256_S256x640_S2048x640_1_0_0_1_n_n_wf : DotDims.WF S2048x256 S256x640 S2048x640 [1] [0] [0] [1] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S32768x256.size a
  hwx0_0 : ∀ i : grid0.Coords, EltTy.bits .f32 = 32 ∨ (Rect.block (s := S32768x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x640.size a ≤ S256x640.size a
  hwx0_1 : ∀ i : grid0.Coords, EltTy.bits .f32 = 32 ∨ (Rect.block (s := S256x640) S256x640.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x640.size a ≤ S1x640.size a
  hwx0_2 : ∀ i : grid0.Coords, EltTy.bits .f32 = 32 ∨ (Rect.block (s := S1x640) S1x640.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S32768x512.size a
  hwx0_5 : ∀ i : grid0.Coords, EltTy.bits .f32 = 32 ∨ (Rect.block (s := S32768x512) S2048x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S32768x128.size a
  hwx0_6 : ∀ i : grid0.Coords, EltTy.bits .f32 = 32 ∨ (Rect.block (s := S32768x128) S2048x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S32768x128.size a
  hwx0_7 : ∀ i : grid0.Coords, EltTy.bits .f32 = 32 ∨ (Rect.block (s := S32768x128) S2048x128.size (cc0_transform_7 i) (hinb0_7 i)).WholeWords (EltTy.packing .f32)

variable [Facts₀]

def dot_S2048x256_S256x640_S2048x640_1_0_0_1_n_n : DotDims S2048x256 S256x640 S2048x640 where
  lhsContracting := [1]
  rhsContracting := [0]
  lhsNonContracting := [0]
  rhsNonContracting := [1]
  lhsBatch := []
  rhsBatch := []
  wf := dot_S2048x256_S256x640_S2048x640_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_v24) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25_0) S2048x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v25_1) S2048x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v25_2) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144x32 : Shape := ⟨2, ![262144, 32]⟩
abbrev S32x80 : Shape := ⟨2, ![32, 80]⟩
abbrev S1x80 : Shape := ⟨2, ![1, 80]⟩
abbrev S64x16 : Shape := ⟨2, ![64, 16]⟩
abbrev S1x16 : Shape := ⟨2, ![1, 16]⟩
abbrev S262144x64 : Shape := ⟨2, ![262144, 64]⟩
abbrev S262144x16 : Shape := ⟨2, ![262144, 16]⟩
abbrev S256x32 : Shape := ⟨2, ![256, 32]⟩
abbrev S256x64 : Shape := ⟨2, ![256, 64]⟩
abbrev S256x16 : Shape := ⟨2, ![256, 16]⟩
abbrev S256x80 : Shape := ⟨2, ![256, 80]⟩

abbrev nBuf : Space → Nat
  | .hbm => 8
  | .vmem => 12
  | .smem => 0
  | _ => 0

abbrev bufTy : (tb : Table) → Fin (tcTables nBuf tb) → BufTy
  | .hbm, ⟨0, _⟩ => ⟨S262144x32, .f32⟩
  | .hbm, ⟨1, _⟩ => ⟨S32x80, .f32⟩
  | .hbm, ⟨2, _⟩ => ⟨S1x80, .f32⟩
  | .hbm, ⟨3, _⟩ => ⟨S64x16, .f32⟩
  | .hbm, ⟨4, _⟩ => ⟨S1x16, .f32⟩
  | .hbm, ⟨5, _⟩ => ⟨S262144x64, .f32⟩
  | .hbm, ⟨6, _⟩ => ⟨S262144x16, .f32⟩
  | .hbm, ⟨7, _⟩ => ⟨S262144x16, .f32⟩
  | .local _ .vmem, ⟨0, _⟩ => ⟨S256x32, .f32⟩
  | .local _ .vmem, ⟨1, _⟩ => ⟨S256x32, .f32⟩
  | .local _ .vmem, ⟨2, _⟩ => ⟨S32x80, .f32⟩
  | .local _ .vmem, ⟨3, _⟩ => ⟨S1x80, .f32⟩
  | .local _ .vmem, ⟨4, _⟩ => ⟨S64x16, .f32⟩
  | .local _ .vmem, ⟨5, _⟩ => ⟨S1x16, .f32⟩
  | .local _ .vmem, ⟨6, _⟩ => ⟨S256x64, .f32⟩
  | .local _ .vmem, ⟨7, _⟩ => ⟨S256x64, .f32⟩
  | .local _ .vmem, ⟨8, _⟩ => ⟨S256x16, .f32⟩
  | .local _ .vmem, ⟨9, _⟩ => ⟨S256x16, .f32⟩
  | .local _ .vmem, ⟨10, _⟩ => ⟨S256x16, .f32⟩
  | .local _ .vmem, ⟨11, _⟩ => ⟨S256x16, .f32⟩
  | _, _ => ⟨S262144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S256x32_S256x32_0_0 : ∀ a, (![0, 0] : Fin 2 → Nat) a + S256x32.size a ≤ S256x32.size a
  h_S256x32 : 0 < S256x32.numel
  inb_S32x80_S32x80_0_0 : ∀ a, (![0, 0] : Fin 2 → Nat) a + S32x80.size a ≤ S32x80.size a
  h_S32x80 : 0 < S32x80.numel
  inb_S1x80_S1x80_0_0 : ∀ a, (![0, 0] : Fin 2 → Nat) a + S1x80.size a ≤ S1x80.size a
  h_S1x80 : 0 < S1x80.numel
  broadcasts_S1x80_S256x80 : S1x80.Broadcasts S256x80
  slices_S256x80_o0_0_S256x64 : S256x80.Slices ![0, 0] S256x64
  slices_S256x80_o0_64_S256x16 : S256x80.Slices ![0, 64] S256x16
  natLt_1_32 : 1 < 32
  inb_S256x64_S256x64_0_0 : ∀ a, (![0, 0] : Fin 2 → Nat) a + S256x64.size a ≤ S256x64.size a
  h_S256x64 : 0 < S256x64.numel
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  broadcasts_S1x16_S256x16 : S1x16.Broadcasts S256x16
  inb_S256x16_S256x16_0_0 : ∀ a, (![0, 0] : Fin 2 → Nat) a + S256x16.size a ≤ S256x16.size a
  h_S256x16 : 0 < S256x16.numel
  dot_S256x32_S32x80_S256x80_1_0_0_1_n_n_wf : DotDims.WF S256x32 S32x80 S256x80 [1] [0] [0] [1] [] []
  dot_S256x64_S64x16_S256x16_1_0_0_1_n_n_wf : DotDims.WF S256x64 S64x16 S256x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32.size a ≤ S262144x32.size a
  hwx0_0 : ∀ i : grid0.Coords, EltTy.bits .f32 = 32 ∨ (Rect.block (s := S262144x32) S256x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x80.size a ≤ S32x80.size a
  hwx0_1 : ∀ i : grid0.Coords, EltTy.bits .f32 = 32 ∨ (Rect.block (s := S32x80) S32x80.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x80.size a ≤ S1x80.size a
  hwx0_2 : ∀ i : grid0.Coords, EltTy.bits .f32 = 32 ∨ (Rect.block (s := S1x80) S1x80.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S262144x64.size a
  hwx0_5 : ∀ i : grid0.Coords, EltTy.bits .f32 = 32 ∨ (Rect.block (s := S262144x64) S256x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x16.size a ≤ S262144x16.size a
  hwx0_6 : ∀ i : grid0.Coords, EltTy.bits .f32 = 32 ∨ (Rect.block (s := S262144x16) S256x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x16.size a ≤ S262144x16.size a
  hwx0_7 : ∀ i : grid0.Coords, EltTy.bits .f32 = 32 ∨ (Rect.block (s := S262144x16) S256x16.size (cc0_transform_7 i) (hinb0_7 i)).WholeWords (EltTy.packing .f32)

variable [Facts₀]

def dot_S256x32_S32x80_S256x80_1_0_0_1_n_n : DotDims S256x32 S32x80 S256x80 where
  lhsContracting := [1]
  rhsContracting := [0]
  lhsNonContracting := [0]
  rhsNonContracting := [1]
  lhsBatch := []
  rhsBatch := []
  wf := dot_S256x32_S32x80_S256x80_1_0_0_1_n_n_wf
def dot_S256x64_S64x16_S256x16_1_0_0_1_n_n : DotDims S256x64 S64x16 S256x16 where
  lhsContracting := [1]
  rhsContracting := [0]
  lhsNonContracting := [0]
  rhsNonContracting := [1]
  lhsBatch := []
  rhsBatch := []
  wf := dot_S256x64_S64x16_S256x16_1_0_0_1_n_n_wf

abbrev win0_0 : Pipeline.Window sig grid0 :=
  Pipeline.Window.ofSpec (Memref.whole main_arg0) S256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x80.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x80.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S256x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S256x16.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S256x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.SpikeSpec.lean ====
/-
  The network both programs compute, as functions of the five argument arrays read at an index, over the extended
  reals. A row of the input meets the fused first-layer weights (80 columns: 64 interneuron columns, then 16 output
  columns) and its bias; the first 64 pre-activations are thresholded at zero into spikes; the spikes meet the
  second-layer weights and bias and are thresholded again; and the sum of the second-layer pre-activation and the last
  16 first-layer pre-activations is thresholded into the output spikes.

  Also here: the positions inside a packed row. Eight consecutive rows of the input are laid side by side in one
  row, so lane `p * K + k` of a packed axis of width `8 * K` holds column `k` of the `p`-th of the eight rows.
-/
import Idealize.ShloMosaic.Lib.ValueIdx
import Idealize.ShloMosaic.PureOps.Ideal.Laws
import Idealize.ShloMosaic.Lib.IdealHost

noncomputable section

namespace Cert.Spike

open Idealize.ShloMosaic Idealize.ShloMosaic.ValueIdx
open scoped BigOperators

/-! ## Positions in a packed row -/

/-- Row `8 r + p` of the input: the `p`-th of the eight rows packed into row `r`. -/
def row8 (r : Fin 32768) (p : Fin 8) : Fin 262144 := ⟨r.val * 8 + p.val, by omega⟩
/-- Lane `32 p + k` of a packed input row. -/
def lane32 (p : Fin 8) (k : Fin 32) : Fin 256 := ⟨p.val * 32 + k.val, by omega⟩
/-- Lane `64 p + k` of a packed row of interneuron spikes. -/
def lane64 (p : Fin 8) (k : Fin 64) : Fin 512 := ⟨p.val * 64 + k.val, by omega⟩
/-- Lane `16 p + k` of a packed row of output-layer values. -/
def lane16 (p : Fin 8) (k : Fin 16) : Fin 128 := ⟨p.val * 16 + k.val, by omega⟩
/-- Column `64 p + k` of the packed first-layer product (its interneuron part, columns 0 to 511 of 640). -/
def wide64 (p : Fin 8) (k : Fin 64) : Fin 640 := ⟨p.val * 64 + k.val, by omega⟩
/-- Column `512 + 16 p + k` of the packed first-layer product (its output-layer part, columns 512 to 639). -/
def wide16 (p : Fin 8) (k : Fin 16) : Fin 640 := ⟨512 + p.val * 16 + k.val, by omega⟩
/-- Interneuron column `j` among the 80 fused first-layer columns. -/
def lo80 (j : Fin 64) : Fin 80 := ⟨j.val, by omega⟩
/-- Output-layer column `j` among the 80 fused first-layer columns: column `64 + j`. -/
def hi80 (j : Fin 16) : Fin 80 := ⟨64 + j.val, by omega⟩

theorem row8_surj (n : Fin 262144) : ∃ (r : Fin 32768) (p : Fin 8), n = row8 r p :=
  ⟨⟨n.val / 8, by omega⟩, ⟨n.val % 8, by omega⟩, Fin.ext (by simp only [row8]; omega)⟩
theorem lane32_surj (c : Fin 256) : ∃ (p : Fin 8) (k : Fin 32), c = lane32 p k :=
  ⟨⟨c.val / 32, by omega⟩, ⟨c.val % 32, by omega⟩, Fin.ext (by simp only [lane32]; omega)⟩
theorem lane64_surj (c : Fin 512) : ∃ (p : Fin 8) (k : Fin 64), c = lane64 p k :=
  ⟨⟨c.val / 64, by omega⟩, ⟨c.val % 64, by omega⟩, Fin.ext (by simp only [lane64]; omega)⟩
theorem lane16_surj (c : Fin 128) : ∃ (p : Fin 8) (k : Fin 16), c = lane16 p k :=
  ⟨⟨c.val / 16, by omega⟩, ⟨c.val % 16, by omega⟩, Fin.ext (by simp only [lane16]; omega)⟩

/-! ## The network -/

/-- The threshold: one above zero, zero otherwise. -/
def step (v : EReal) : EReal := if Ideal.cmp .ogt v 0 = 1#1 then 1 else 0

section
variable (x : (⟨2, ![262144, 32]⟩ : Shape).Idx → EReal) (w13 : (⟨2, ![32, 80]⟩ : Shape).Idx → EReal)
  (b13 : (⟨2, ![1, 80]⟩ : Shape).Idx → EReal) (w2 : (⟨2, ![64, 16]⟩ : Shape).Idx → EReal)
  (b2 : (⟨2, ![1, 16]⟩ : Shape).Idx → EReal)

/-- The fused first layer before its threshold: row `n` of the input against column `j` of the weights, plus the bias. -/
def pre1 (n : Fin 262144) (j : Fin 80) : EReal :=
  (∑ k : Fin 32, x (ix2 n k) * w13 (ix2 k j)) + b13 (ix2 (0 : Fin 1) j)

/-- The interneuron spikes. -/
def spike1 (n : Fin 262144) (j : Fin 64) : EReal := step (pre1 x w13 b13 n (lo80 j))

/-- The second layer before its threshold: the interneuron spikes of row `n` against the second-layer weights, plus its bias. -/
def pre2 (n : Fin 262144) (j : Fin 16) : EReal :=
  (∑ k : Fin 64, spike1 x w13 b13 n k * w2 (ix2 k j)) + b2 (ix2 (0 : Fin 1) j)

/-- The second-layer spikes. -/
def spike2 (n : Fin 262144) (j : Fin 16) : EReal := step (pre2 x w13 b13 w2 b2 n j)

/-- The output spikes: the second-layer pre-activation plus the direct first-layer path, thresholded. -/
def spikeOut (n : Fin 262144) (j : Fin 16) : EReal :=
  step (pre2 x w13 b13 w2 b2 n j + pre1 x w13 b13 n (hi80 j))

/-- The three result arrays. -/
def out1 : (⟨2, ![262144, 64]⟩ : Shape).Idx → EReal := fun i => spike1 x w13 b13 (i 0) (i 1)
def out2 : (⟨2, ![262144, 16]⟩ : Shape).Idx → EReal := fun i => spike2 x w13 b13 w2 b2 (i 0) (i 1)
def out3 : (⟨2, ![262144, 16]⟩ : Shape).Idx → EReal := fun i => spikeOut x w13 b13 w2 b2 (i 0) (i 1)

theorem out1_apply (n : Fin 262144) (j : Fin 64) : out1 x w13 b13 (ix2 n j) = spike1 x w13 b13 n j := rfl
theorem out2_apply (n : Fin 262144) (j : Fin 16) : out2 x w13 b13 w2 b2 (ix2 n j) = spike2 x w13 b13 w2 b2 n j := rfl
theorem out3_apply (n : Fin 262144) (j : Fin 16) : out3 x w13 b13 w2 b2 (ix2 n j) = spikeOut x w13 b13 w2 b2 n j := rfl

end

/-! ## The threshold as the two programs spell it -/

/-- A comparison bit chosen between the patterns of one and zero is the threshold's value. -/
theorem select_step (v : EReal) :
    Scalar.select (Ideal.cmp .ogt v (Ideal.ofBits .f32 0x00000000#32)) (Ideal.ofBits .f32 0x3F800000#32)
      (Ideal.ofBits .f32 0x00000000#32) = step v := by
  rw [Ideal.ofBits_zero_f32, Ideal.ofBits_one_f32]; rfl

/-- A comparison bit widened to a word and read as a signed integer is the threshold's value. -/
theorem sitofp_step (v : EReal) :
    (((((Ideal.cmp .ogt v (Ideal.ofBits .f32 0x00000000#32)).setWidth 32).toInt : ℤ) : ℝ) : EReal) = step v := by
  rw [Ideal.ofBits_zero_f32]
  unfold step
  rcases (by decide : ∀ b : BitVec 1, b = 0#1 ∨ b = 1#1) (Ideal.cmp .ogt v 0) with h | h
  · rw [h]; simp
  · rw [h]; simp

end Cert.Spike

end
-- ==== Proof.KerHostX.lean ====
/-
  The packed input array. The input of 262144 rows and 32 columns is reshaped to 32768 rows of 256
  lanes; a reshape keeps row-major positions, so lane `32 p + k` of packed row `r` is column `k` of input row `8 r + p`.
-/
import proofs.«156992_g2000306523512037_pallasbulk_875_3_alg».proof.Proof.Gen.KernelIdeal.Frame
import proofs.«156992_g2000306523512037_pallasbulk_875_3_alg».proof.Proof.SpikeSpec
import Idealize.ShloMosaic.Lib.ValueIdx
import Idealize.ShloMosaic.Lib.Pipeline.Value
import Idealize.ShloMosaic.Lib.StableHlo.Run

set_option maxRecDepth 16384

noncomputable section

namespace Cert.Spike.KerHost

open Idealize.ShloMosaic Idealize.ShloMosaic.ValueIdx Idealize.ShloMosaic.StableHlo
open Idealize.ShloMosaic.TcCoe
open Cert.KernelIdeal Cert.KernelIdeal.Gen Cert.Spike

variable (m : (ℓ : Loc Cert.KernelIdeal.nD Cert.KernelIdeal.τ Cert.KernelIdeal.sig) → Buf (Elt Ideal) ℓ) (c : Dev Cert.KernelIdeal.nD)

/-- The packed input read at row `r`, lane `32 p + k`, is the input at row `8 r + p`, column `k`: both have
row-major position `256 r + 32 p + k`. -/
theorem pack_apply (x : S262144x32.Idx → EReal) (r : Fin 32768) (p : Fin 8) (k : Fin 32) :
    shapeCast S32768x256 x shapeCasts_S262144x32_S32768x256 (ix2 r (lane32 p k)) = x (ix2 (row8 r p) k) := by
  refine shapeCast_apply x _ _ _ ?_
  rw [Shape.rowMajor_val_two, Shape.rowMajor_val_two]
  show (r.val * 8 + p.val) * 32 + k.val = r.val * 256 + (p.val * 32 + k.val)
  omega

theorem V_x_term : (V m c main_v24 : S32768x256.Idx → EReal)
    = shapeCast S32768x256 (m ((c : Thread nD τ).loc main_arg0) : S262144x32.Idx → EReal) shapeCasts_S262144x32_S32768x256 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

theorem V_x (r : Fin 32768) (p : Fin 8) (k : Fin 32) :
    (V m c main_v24 : S32768x256.Idx → EReal) (ix2 r (lane32 p k)) = (m ((c : Thread nD τ).loc main_arg0) : S262144x32.Idx → EReal) (ix2 (row8 r p) k) := by
  rw [V_x_term]
  exact pack_apply _ r p k

end Cert.Spike.KerHost

end
-- ==== Proof.KerHostBb.lean ====
/-
  The packed second-layer bias. The bias row of 16 entries is tiled 8 times into a row of 128: entry
  `16 q + j` of the tiled row is entry `j` of the bias.
-/
import proofs.«156992_g2000306523512037_pallasbulk_875_3_alg».proof.Proof.Gen.KernelIdeal.Frame
import proofs.«156992_g2000306523512037_pallasbulk_875_3_alg».proof.Proof.SpikeSpec
import Idealize.ShloMosaic.Lib.ValueIdx
import Idealize.ShloMosaic.Lib.Pipeline.Value
import Idealize.ShloMosaic.Lib.StableHlo.Run

set_option maxRecDepth 16384

noncomputable section

namespace Cert.Spike.KerHost

open Idealize.ShloMosaic Idealize.ShloMosaic.ValueIdx Idealize.ShloMosaic.StableHlo
open Idealize.ShloMosaic.TcCoe
open Cert.KernelIdeal Cert.KernelIdeal.Gen Cert.Spike

variable (m : (ℓ : Loc Cert.KernelIdeal.nD Cert.KernelIdeal.τ Cert.KernelIdeal.sig) → Buf (Elt Ideal) ℓ) (c : Dev Cert.KernelIdeal.nD)

/-- A row of 16 entries tiled 8 times: entry `16 q + j` of the tiled row is entry `j` of the row. The row is given a
third and fourth unit axis, broadcast along the third to extent 8, and flattened; position `16 q + j` of the flat row is
`(0, 0, q, j)` of the broadcast, which reads `(0, 0, 0, j)`. -/
theorem tile16_apply (b : S1x16.Idx → EReal) (q : Fin 8) (j : Fin 16) :
    shapeCast S1x128 (broadcastInDim S1x1x8x16 ![0, 1, 2, 3] bcast_S1x1x1x16_S1x1x8x16_0_1_2_3
      (shapeCast S1x1x1x16 b shapeCasts_S1x16_S1x1x1x16)) shapeCasts_S1x1x8x16_S1x128 (ix2 (0 : Fin 1) (lane16 q j))
      = b (ix2 (0 : Fin 1) j) := by
  refine (shapeCast_apply _ _ _ (ix4 (0 : Fin 1) (0 : Fin 1) q j) ?_).trans ?_
  · rw [Shape.rowMajor_val_four, Shape.rowMajor_val_two]
    show ((0 * 1 + 0) * 8 + q.val) * 16 + j.val = 0 * 128 + (q.val * 16 + j.val)
    omega
  refine (broadcastInDim_apply _ _ _ _ (ix4 (0 : Fin 1) (0 : Fin 1) (0 : Fin 1) j) ?_).trans ?_
  · intro a
    match a with
    | ⟨0, _⟩ => rfl
    | ⟨1, _⟩ => rfl
    | ⟨2, _⟩ => rfl
    | ⟨3, _⟩ => rfl
  refine shapeCast_apply _ _ _ _ ?_
  rw [Shape.rowMajor_val_two, Shape.rowMajor_val_four]
  show 0 * 16 + j.val = ((0 * 1 + 0) * 1 + 0) * 16 + j.val
  omega

theorem V_bb_term : (V m c main_v23 : S1x128.Idx → EReal)
    = shapeCast S1x128 (broadcastInDim S1x1x8x16 ![0, 1, 2, 3] bcast_S1x1x1x16_S1x1x8x16_0_1_2_3
      (shapeCast S1x1x1x16 (m ((c : Thread nD τ).loc main_arg4) : S1x16.Idx → EReal) shapeCasts_S1x16_S1x1x1x16)) shapeCasts_S1x1x8x16_S1x128 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

theorem V_bb (q : Fin 8) (j : Fin 16) :
    (V m c main_v23 : S1x128.Idx → EReal) (ix2 (0 : Fin 1) (lane16 q j))
      = (m ((c : Thread nD τ).loc main_arg4) : S1x16.Idx → EReal) (ix2 (0 : Fin 1) j) := by
  rw [V_bb_term]
  exact tile16_apply _ q j

end Cert.Spike.KerHost

end
-- ==== Proof.KerHostBa.lean ====
/-
  The packed first-layer bias. The bias row of 80 entries is cut into its first 64 and its last 16
  entries, each part is tiled 8 times, and the two tiled rows are laid end to end: entry `64 q + j` of the packed row is
  entry `j` of the bias, and entry `512 + 16 q + j` is entry `64 + j`.
-/
import proofs.«156992_g2000306523512037_pallasbulk_875_3_alg».proof.Proof.Gen.KernelIdeal.Frame
import proofs.«156992_g2000306523512037_pallasbulk_875_3_alg».proof.Proof.SpikeSpec
import proofs.«156992_g2000306523512037_pallasbulk_875_3_alg».proof.Proof.KerHostBb
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Spike.KerHost

open Idealize.ShloMosaic Idealize.ShloMosaic.ValueIdx Idealize.ShloMosaic.StableHlo
open Idealize.ShloMosaic.TcCoe
open Cert.KernelIdeal Cert.KernelIdeal.Gen Cert.Spike

variable (m : (ℓ : Loc Cert.KernelIdeal.nD Cert.KernelIdeal.τ Cert.KernelIdeal.sig) → Buf (Elt Ideal) ℓ) (c : Dev Cert.KernelIdeal.nD)

/-- A row of 64 entries tiled 8 times: entry `64 q + j` of the tiled row is entry `j` of the row. -/
theorem tile64_apply (b : S1x64.Idx → EReal) (q : Fin 8) (j : Fin 64) :
    shapeCast S1x512 (broadcastInDim S1x1x8x64 ![0, 1, 2, 3] bcast_S1x1x1x64_S1x1x8x64_0_1_2_3
      (shapeCast S1x1x1x64 b shapeCasts_S1x64_S1x1x1x64)) shapeCasts_S1x1x8x64_S1x512 (ix2 (0 : Fin 1) (lane64 q j))
      = b (ix2 (0 : Fin 1) j) := by
  refine (shapeCast_apply _ _ _ (ix4 (0 : Fin 1) (0 : Fin 1) q j) ?_).trans ?_
  · rw [Shape.rowMajor_val_four, Shape.rowMajor_val_two]
    show ((0 * 1 + 0) * 8 + q.val) * 64 + j.val = 0 * 512 + (q.val * 64 + j.val)
    omega
  refine (broadcastInDim_apply _ _ _ _ (ix4 (0 : Fin 1) (0 : Fin 1) (0 : Fin 1) j) ?_).trans ?_
  · intro a
    match a with
    | ⟨0, _⟩ => rfl
    | ⟨1, _⟩ => rfl
    | ⟨2, _⟩ => rfl
    | ⟨3, _⟩ => rfl
  refine shapeCast_apply _ _ _ _ ?_
  rw [Shape.rowMajor_val_two, Shape.rowMajor_val_four]
  show 0 * 64 + j.val = ((0 * 1 + 0) * 1 + 0) * 64 + j.val
  omega

/-- In a row of 512 entries followed by a row of 128, entry `64 q + j` is entry `64 q + j` of the first. -/
theorem cat_row_lo (x₁ : S1x512.Idx → EReal) (x₂ : S1x128.Idx → EReal) (q : Fin 8) (j : Fin 64) :
    concatenate S1x640 1 [⟨S1x512, x₁⟩, ⟨S1x128, x₂⟩] concatenates_S1x512_S1x128_S1x640_d1 (ix2 (0 : Fin 1) (wide64 q j))
      = x₁ (ix2 (0 : Fin 1) (lane64 q j)) := by
  refine concatenate_pair_apply_left (t := S1x640) (1 : Fin S1x640.rank) x₁ x₂ _ _ rfl (ix2 (0 : Fin 1) (lane64 q j)) ?_
  intro b
  match b with
  | ⟨0, _⟩ => rfl
  | ⟨1, _⟩ => rfl

/-- In a row of 512 entries followed by a row of 128, entry `512 + 16 q + j` is entry `16 q + j` of the second. -/
theorem cat_row_hi (x₁ : S1x512.Idx → EReal) (x₂ : S1x128.Idx → EReal) (q : Fin 8) (j : Fin 16) :
    concatenate S1x640 1 [⟨S1x512, x₁⟩, ⟨S1x128, x₂⟩] concatenates_S1x512_S1x128_S1x640_d1 (ix2 (0 : Fin 1) (wide16 q j))
      = x₂ (ix2 (0 : Fin 1) (lane16 q j)) := by
  refine concatenate_pair_apply_right (t := S1x640) (1 : Fin S1x640.rank) x₁ x₂ _ _ rfl rfl (ix2 (0 : Fin 1) (lane16 q j)) ?_ ?_
  · intro b hb
    match b, hb with
    | ⟨0, _⟩, _ => rfl
    | ⟨1, _⟩, hb => exact absurd rfl hb
  · show (q.val * 16 + j.val) + 512 = 512 + q.val * 16 + j.val
    omega

set_option maxHeartbeats 4000000 in
theorem V_ba_term : (V m c main_v19 : S1x640.Idx → EReal)
    = concatenate S1x640 1
        [⟨S1x512, shapeCast S1x512 (broadcastInDim S1x1x8x64 ![0, 1, 2, 3] bcast_S1x1x1x64_S1x1x8x64_0_1_2_3
            (shapeCast S1x1x1x64 (extractStridedSlice S1x64 ![0, 0] (m ((c : Thread nD τ).loc main_arg2) : S1x80.Idx → EReal) slices_S1x80_S1x64_0_0)
              shapeCasts_S1x64_S1x1x1x64)) shapeCasts_S1x1x8x64_S1x512⟩,
         ⟨S1x128, shapeCast S1x128 (broadcastInDim S1x1x8x16 ![0, 1, 2, 3] bcast_S1x1x1x16_S1x1x8x16_0_1_2_3
            (shapeCast S1x1x1x16 (extractStridedSlice S1x16 ![0, 64] (m ((c : Thread nD τ).loc main_arg2) : S1x80.Idx → EReal) slices_S1x80_S1x16_0_64)
              shapeCasts_S1x16_S1x1x1x16)) shapeCasts_S1x1x8x16_S1x128⟩]
        concatenates_S1x512_S1x128_S1x640_d1 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

theorem V_ba_lo (q : Fin 8) (j : Fin 64) :
    (V m c main_v19 : S1x640.Idx → EReal) (ix2 (0 : Fin 1) (wide64 q j))
      = (m ((c : Thread nD τ).loc main_arg2) : S1x80.Idx → EReal) (ix2 (0 : Fin 1) (lo80 j)) := by
  rw [V_ba_term]
  refine (cat_row_lo _ _ q j).trans ?_
  refine (tile64_apply _ q j).trans ?_
  exact slice2_axis1_apply 0 _ slices_S1x80_S1x64_0_0 (0 : Fin 1) j (lo80 j) (by show j.val = 0 + j.val; omega)

theorem V_ba_hi (q : Fin 8) (j : Fin 16) :
    (V m c main_v19 : S1x640.Idx → EReal) (ix2 (0 : Fin 1) (wide16 q j))
      = (m ((c : Thread nD τ).loc main_arg2) : S1x80.Idx → EReal) (ix2 (0 : Fin 1) (hi80 j)) := by
  rw [V_ba_term]
  refine (cat_row_hi _ _ q j).trans ?_
  refine (tile16_apply _ q j).trans ?_
  exact slice2_axis1_apply 64 _ slices_S1x80_S1x16_0_64 (0 : Fin 1) j (hi80 j) (by show 64 + j.val = 64 + j.val; rfl)

end Cert.Spike.KerHost

end
-- ==== Proof.KerHostKron.lean ====
/-
  The 8 by 8 identity matrix as the program builds it, and its Kronecker products with the weight matrices: the
  block-diagonal weights the packed rows are multiplied by.
-/
import proofs.«156992_g2000306523512037_pallasbulk_875_3_alg».proof.Proof.Gen.KernelIdeal.Frame
import proofs.«156992_g2000306523512037_pallasbulk_875_3_alg».proof.Proof.SpikeSpec
import Idealize.ShloMosaic.Lib.ValueIdx
import Idealize.ShloMosaic.Lib.Pipeline.Value
import Idealize.ShloMosaic.Lib.IdealHost

set_option maxRecDepth 16384

noncomputable section

namespace Cert.Spike.KerHost

open Idealize.ShloMosaic Idealize.ShloMosaic.ValueIdx Idealize.ShloMosaic.StableHlo
open Idealize.ShloMosaic.TcCoe
open Cert.KernelIdeal Cert.KernelIdeal.Gen Cert.Spike

variable (m : (ℓ : Loc Cert.KernelIdeal.nD Cert.KernelIdeal.τ Cert.KernelIdeal.sig) → Buf (Elt Ideal) ℓ) (c : Dev Cert.KernelIdeal.nD)

/-! ## The 8 by 8 identity matrix -/

/-- The identity matrix as the program builds it: the comparison of the row number (plus zero) with the column number,
read as a number. -/
def eye : FVec Ideal S8x8 .f32 :=
  uitofp .f32 (cmpi .eq (addi (iotaInDim S8x8 32 0) (broadcastInDim S8x8 ![] bcast_S_S8x8 (constantI S_ 32 0#32))) (iotaInDim S8x8 32 1))

/-- The comparison bit: row and column numbers below 8 are equal as 32-bit words exactly when they are equal. -/
theorem eye_bit : ∀ p q : Fin 8,
    IntOp.cmpi .eq (IntOp.addi (BitVec.ofNat 32 p.val) 0#32) (BitVec.ofNat 32 q.val) = if p = q then 1#1 else 0#1 := by
  decide

/-- The identity matrix at `(p, q)`: one on the diagonal, zero off it. -/
theorem eye_apply (p q : Fin 8) : eye (ix2 p q) = if p = q then (1 : EReal) else 0 := by
  show (((IntOp.cmpi .eq (IntOp.addi (BitVec.ofNat 32 p.val) 0#32) (BitVec.ofNat 32 q.val)).toNat : ℝ) : EReal) = _
  rw [eye_bit]
  split <;> simp

/-! ## Kronecker products with the identity

The product of an 8 by 8 matrix `E` and a `K` by `J` matrix `W` is formed as a rank-four array — `E` spread along
axes 0 and 2, `W` along axes 1 and 3, multiplied entry by entry — and flattened to `8 K` rows and `8 J` columns. Row
`K p + k`, column `J q + j` of the flat matrix has the row-major position of `(p, k, q, j)`, so it is `E (p, q) * W (k, j)`. -/

/-- The product with a 32 by 64 matrix. -/
theorem kron_32_64_apply (E : FVec Ideal S8x8 .f32) (W : FVec Ideal S32x64 .f32) (p q : Fin 8) (k : Fin 32) (j : Fin 64) :
    shapeCast S256x512
      (mulf (F := Ideal)
        (broadcastInDim S8x32x8x64 ![0, 1, 2, 3] bcast_S8x1x8x1_S8x32x8x64_0_1_2_3 (broadcastInDim S8x1x8x1 ![0, 2] bcast_S8x8_S8x1x8x1_0_2 E))
        (broadcastInDim S8x32x8x64 ![0, 1, 2, 3] bcast_S1x32x1x64_S8x32x8x64_0_1_2_3 (broadcastInDim S1x32x1x64 ![1, 3] bcast_S32x64_S1x32x1x64_1_3 W)))
      shapeCasts_S8x32x8x64_S256x512 (ix2 (lane32 p k) (lane64 q j)) = E (ix2 p q) * W (ix2 k j) := by
  refine (shapeCast_apply _ _ _ (ix4 p k q j) ?_).trans ?_
  · rw [Shape.rowMajor_val_four, Shape.rowMajor_val_two]
    show ((p.val * 32 + k.val) * 8 + q.val) * 64 + j.val = (p.val * 32 + k.val) * 512 + (q.val * 64 + j.val)
    omega
  refine (mulf_apply _ _ _).trans ?_
  refine congrArg₂ (· * ·) ?_ ?_
  · refine (broadcastInDim_apply _ _ _ _ (ix4 p (0 : Fin 1) q (0 : Fin 1)) ?_).trans ?_
    · intro a
      match a with
      | ⟨0, _⟩ => rfl
      | ⟨1, _⟩ => rfl
      | ⟨2, _⟩ => rfl
      | ⟨3, _⟩ => rfl
    refine broadcastInDim_apply _ _ _ _ (ix2 p q) ?_
    intro a
    match a with
    | ⟨0, _⟩ => rfl
    | ⟨1, _⟩ => rfl
  · refine (broadcastInDim_apply _ _ _ _ (ix4 (0 : Fin 1) k (0 : Fin 1) j) ?_).trans ?_
    · intro a
      match a with
      | ⟨0, _⟩ => rfl
      | ⟨1, _⟩ => rfl
      | ⟨2, _⟩ => rfl
      | ⟨3, _⟩ => rfl
    refine broadcastInDim_apply _ _ _ _ (ix2 k j) ?_
    intro a
    match a with
    | ⟨0, _⟩ => rfl
    | ⟨1, _⟩ => rfl

/-- The product with a 32 by 16 matrix. -/
theorem kron_32_16_apply (E : FVec Ideal S8x8 .f32) (W : FVec Ideal S32x16 .f32) (p q : Fin 8) (k : Fin 32) (j : Fin 16) :
    shapeCast S256x128
      (mulf (F := Ideal)
        (broadcastInDim S8x32x8x16 ![0, 1, 2, 3] bcast_S8x1x8x1_S8x32x8x16_0_1_2_3 (broadcastInDim S8x1x8x1 ![0, 2] bcast_S8x8_S8x1x8x1_0_2 E))
        (broadcastInDim S8x32x8x16 ![0, 1, 2, 3] bcast_S1x32x1x16_S8x32x8x16_0_1_2_3 (broadcastInDim S1x32x1x16 ![1, 3] bcast_S32x16_S1x32x1x16_1_3 W)))
      shapeCasts_S8x32x8x16_S256x128 (ix2 (lane32 p k) (lane16 q j)) = E (ix2 p q) * W (ix2 k j) := by
  refine (shapeCast_apply _ _ _ (ix4 p k q j) ?_).trans ?_
  · rw [Shape.rowMajor_val_four, Shape.rowMajor_val_two]
    show ((p.val * 32 + k.val) * 8 + q.val) * 16 + j.val = (p.val * 32 + k.val) * 128 + (q.val * 16 + j.val)
    omega
  refine (mulf_apply _ _ _).trans ?_
  refine congrArg₂ (· * ·) ?_ ?_
  · refine (broadcastInDim_apply _ _ _ _ (ix4 p (0 : Fin 1) q (0 : Fin 1)) ?_).trans ?_
    · intro a
      match a with
      | ⟨0, _⟩ => rfl
      | ⟨1, _⟩ => rfl
      | ⟨2, _⟩ => rfl
      | ⟨3, _⟩ => rfl
    refine broadcastInDim_apply _ _ _ _ (ix2 p q) ?_
    intro a
    match a with
    | ⟨0, _⟩ => rfl
    | ⟨1, _⟩ => rfl
  · refine (broadcastInDim_apply _ _ _ _ (ix4 (0 : Fin 1) k (0 : Fin 1) j) ?_).trans ?_
    · intro a
      match a with
      | ⟨0, _⟩ => rfl
      | ⟨1, _⟩ => rfl
      | ⟨2, _⟩ => rfl
      | ⟨3, _⟩ => rfl
    refine broadcastInDim_apply _ _ _ _ (ix2 k j) ?_
    intro a
    match a with
    | ⟨0, _⟩ => rfl
    | ⟨1, _⟩ => rfl

/-- The product with a 64 by 16 matrix. -/
theorem kron_64_16_apply (E : FVec Ideal S8x8 .f32) (W : FVec Ideal S64x16 .f32) (p q : Fin 8) (k : Fin 64) (j : Fin 16) :
    shapeCast S512x128
      (mulf (F := Ideal)
        (broadcastInDim S8x64x8x16 ![0, 1, 2, 3] bcast_S8x1x8x1_S8x64x8x16_0_1_2_3 (broadcastInDim S8x1x8x1 ![0, 2] bcast_S8x8_S8x1x8x1_0_2 E))
        (broadcastInDim S8x64x8x16 ![0, 1, 2, 3] bcast_S1x64x1x16_S8x64x8x16_0_1_2_3 (broadcastInDim S1x64x1x16 ![1, 3] bcast_S64x16_S1x64x1x16_1_3 W)))
      shapeCasts_S8x64x8x16_S512x128 (ix2 (lane64 p k) (lane16 q j)) = E (ix2 p q) * W (ix2 k j) := by
  refine (shapeCast_apply _ _ _ (ix4 p k q j) ?_).trans ?_
  · rw [Shape.rowMajor_val_four, Shape.rowMajor_val_two]
    show ((p.val * 64 + k.val) * 8 + q.val) * 16 + j.val = (p.val * 64 + k.val) * 128 + (q.val * 16 + j.val)
    omega
  refine (mulf_apply _ _ _).trans ?_
  refine congrArg₂ (· * ·) ?_ ?_
  · refine (broadcastInDim_apply _ _ _ _ (ix4 p (0 : Fin 1) q (0 : Fin 1)) ?_).trans ?_
    · intro a
      match a with
      | ⟨0, _⟩ => rfl
      | ⟨1, _⟩ => rfl
      | ⟨2, _⟩ => rfl
      | ⟨3, _⟩ => rfl
    refine broadcastInDim_apply _ _ _ _ (ix2 p q) ?_
    intro a
    match a with
    | ⟨0, _⟩ => rfl
    | ⟨1, _⟩ => rfl
  · refine (broadcastInDim_apply _ _ _ _ (ix4 (0 : Fin 1) k (0 : Fin 1) j) ?_).trans ?_
    · intro a
      match a with
      | ⟨0, _⟩ => rfl
      | ⟨1, _⟩ => rfl
      | ⟨2, _⟩ => rfl
      | ⟨3, _⟩ => rfl
    refine broadcastInDim_apply _ _ _ _ (ix2 k j) ?_
    intro a
    match a with
    | ⟨0, _⟩ => rfl
    | ⟨1, _⟩ => rfl

end Cert.Spike.KerHost

end
-- ==== Proof.KerHostWb.lean ====
/-
  The packed second-layer weights. The 64 by 16 weight matrix is multiplied, as a Kronecker product,
  by the 8 by 8 identity: row `64 p + k`, column `16 q + j` of the block-diagonal result is the weight at `(k, j)` when
  `p = q` and zero otherwise.
-/
import proofs.«156992_g2000306523512037_pallasbulk_875_3_alg».proof.Proof.Gen.KernelIdeal.Frame
import proofs.«156992_g2000306523512037_pallasbulk_875_3_alg».proof.Proof.SpikeSpec
import proofs.«156992_g2000306523512037_pallasbulk_875_3_alg».proof.Proof.KerHostKron
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Spike.KerHost

open Idealize.ShloMosaic Idealize.ShloMosaic.ValueIdx Idealize.ShloMosaic.StableHlo
open Idealize.ShloMosaic.TcCoe
open Cert.KernelIdeal Cert.KernelIdeal.Gen Cert.Spike

variable (m : (ℓ : Loc Cert.KernelIdeal.nD Cert.KernelIdeal.τ Cert.KernelIdeal.sig) → Buf (Elt Ideal) ℓ) (c : Dev Cert.KernelIdeal.nD)

set_option maxHeartbeats 4000000 in
theorem V_wb_term : (V m c main_v20 : S512x128.Idx → EReal)
    = shapeCast S512x128
      (mulf (F := Ideal)
        (broadcastInDim S8x64x8x16 ![0, 1, 2, 3] bcast_S8x1x8x1_S8x64x8x16_0_1_2_3 (broadcastInDim S8x1x8x1 ![0, 2] bcast_S8x8_S8x1x8x1_0_2 eye))
        (broadcastInDim S8x64x8x16 ![0, 1, 2, 3] bcast_S1x64x1x16_S8x64x8x16_0_1_2_3 (broadcastInDim S1x64x1x16 ![1, 3] bcast_S64x16_S1x64x1x16_1_3 (m ((c : Thread nD τ).loc main_arg3) : FVec Ideal S64x16 .f32))))
      shapeCasts_S8x64x8x16_S512x128 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

theorem V_wb (p q : Fin 8) (k : Fin 64) (j : Fin 16) :
    (V m c main_v20 : S512x128.Idx → EReal) (ix2 (lane64 p k) (lane16 q j))
      = (if p = q then (1 : EReal) else 0) * (m ((c : Thread nD τ).loc main_arg3) : S64x16.Idx → EReal) (ix2 k j) := by
  rw [V_wb_term]
  refine (kron_64_16_apply _ _ p q k j).trans ?_
  rw [eye_apply]

end Cert.Spike.KerHost

end
-- ==== Proof.KerHostWa.lean ====
/-
  The packed first-layer weights. The 32 by 80 weight matrix is cut into its first 64 and its last 16 columns; each part
  is multiplied, as a Kronecker product, by the 8 by 8 identity; and the two block-diagonal matrices are laid side by
  side, the 512 interneuron columns first. Row `32 p + k` of the result holds, in column `64 q + j`, the weight at
  `(k, j)` when `p = q` and zero otherwise, and in column `512 + 16 q + j` the weight at `(k, 64 + j)` when `p = q` and
  zero otherwise.
-/
import proofs.«156992_g2000306523512037_pallasbulk_875_3_alg».proof.Proof.Gen.KernelIdeal.Frame
import proofs.«156992_g2000306523512037_pallasbulk_875_3_alg».proof.Proof.SpikeSpec
import proofs.«156992_g2000306523512037_pallasbulk_875_3_alg».proof.Proof.KerHostKron
import Idealize.ShloMosaic.Lib.ValueIdx
import Idealize.ShloMosaic.Lib.ValueLayout
import Idealize.ShloMosaic.Lib.ValueLayout
import Idealize.ShloMosaic.Lib.Pipeline.Value
import Idealize.ShloMosaic.Lib.StableHlo.Run

set_option maxRecDepth 16384

noncomputable section

namespace Cert.Spike.KerHost

open Idealize.ShloMosaic Idealize.ShloMosaic.ValueIdx Idealize.ShloMosaic.StableHlo
open Idealize.ShloMosaic.TcCoe
open Cert.KernelIdeal Cert.KernelIdeal.Gen Cert.Spike

variable (m : (ℓ : Loc Cert.KernelIdeal.nD Cert.KernelIdeal.τ Cert.KernelIdeal.sig) → Buf (Elt Ideal) ℓ) (c : Dev Cert.KernelIdeal.nD)

/-- In a matrix of 512 columns followed by one of 128, column `64 q + j` is column `64 q + j` of the first. -/
theorem cat_mat_lo (x₁ : S256x512.Idx → EReal) (x₂ : S256x128.Idx → EReal) (r : Fin 256) (q : Fin 8) (j : Fin 64) :
    concatenate S256x640 1 [⟨S256x512, x₁⟩, ⟨S256x128, x₂⟩] concatenates_S256x512_S256x128_S256x640_d1 (ix2 r (wide64 q j))
      = x₁ (ix2 r (lane64 q j)) := by
  refine concatenate_pair_apply_left (t := S256x640) (1 : Fin S256x640.rank) x₁ x₂ _ _ rfl (ix2 r (lane64 q j)) ?_
  intro b
  match b with
  | ⟨0, _⟩ => rfl
  | ⟨1, _⟩ => rfl

/-- In a matrix of 512 columns followed by one of 128, column `512 + 16 q + j` is column `16 q + j` of the second. -/
theorem cat_mat_hi (x₁ : S256x512.Idx → EReal) (x₂ : S256x128.Idx → EReal) (r : Fin 256) (q : Fin 8) (j : Fin 16) :
    concatenate S256x640 1 [⟨S256x512, x₁⟩, ⟨S256x128, x₂⟩] concatenates_S256x512_S256x128_S256x640_d1 (ix2 r (wide16 q j))
      = x₂ (ix2 r (lane16 q j)) := by
  refine concatenate_pair_apply_right (t := S256x640) (1 : Fin S256x640.rank) x₁ x₂ _ _ rfl rfl (ix2 r (lane16 q j)) ?_ ?_
  · intro b hb
    match b, hb with
    | ⟨0, _⟩, _ => rfl
    | ⟨1, _⟩, hb => exact absurd rfl hb
  · show (q.val * 16 + j.val) + 512 = 512 + q.val * 16 + j.val
    omega

set_option maxHeartbeats 4000000 in
theorem V_wa_term : (V m c main_v10 : S256x640.Idx → EReal)
    = concatenate S256x640 1
        [⟨S256x512, shapeCast S256x512
      (mulf (F := Ideal)
        (broadcastInDim S8x32x8x64 ![0, 1, 2, 3] bcast_S8x1x8x1_S8x32x8x64_0_1_2_3 (broadcastInDim S8x1x8x1 ![0, 2] bcast_S8x8_S8x1x8x1_0_2 eye))
        (broadcastInDim S8x32x8x64 ![0, 1, 2, 3] bcast_S1x32x1x64_S8x32x8x64_0_1_2_3 (broadcastInDim S1x32x1x64 ![1, 3] bcast_S32x64_S1x32x1x64_1_3 (extractStridedSlice S32x64 ![0, 0] (m ((c : Thread nD τ).loc main_arg1) : FVec Ideal S32x80 .f32) slices_S32x80_S32x64_0_0))))
      shapeCasts_S8x32x8x64_S256x512⟩,
         ⟨S256x128, shapeCast S256x128
      (mulf (F := Ideal)
        (broadcastInDim S8x32x8x16 ![0, 1, 2, 3] bcast_S8x1x8x1_S8x32x8x16_0_1_2_3 (broadcastInDim S8x1x8x1 ![0, 2] bcast_S8x8_S8x1x8x1_0_2 eye))
        (broadcastInDim S8x32x8x16 ![0, 1, 2, 3] bcast_S1x32x1x16_S8x32x8x16_0_1_2_3 (broadcastInDim S1x32x1x16 ![1, 3] bcast_S32x16_S1x32x1x16_1_3 (extractStridedSlice S32x16 ![0, 64] (m ((c : Thread nD τ).loc main_arg1) : FVec Ideal S32x80 .f32) slices_S32x80_S32x16_0_64))))
      shapeCasts_S8x32x8x16_S256x128⟩]
        concatenates_S256x512_S256x128_S256x640_d1 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

theorem V_wa_lo (p q : Fin 8) (k : Fin 32) (j : Fin 64) :
    (V m c main_v10 : S256x640.Idx → EReal) (ix2 (lane32 p k) (wide64 q j))
      = (if p = q then (1 : EReal) else 0) * (m ((c : Thread nD τ).loc main_arg1) : S32x80.Idx → EReal) (ix2 k (lo80 j)) := by
  rw [V_wa_term]
  refine (cat_mat_lo _ _ (lane32 p k) q j).trans ?_
  refine (kron_32_64_apply _ _ p q k j).trans ?_
  rw [eye_apply]
  exact congrArg _ (slice2_axis1_apply 0 _ slices_S32x80_S32x64_0_0 k j (lo80 j) (by show j.val = 0 + j.val; omega))

theorem V_wa_hi (p q : Fin 8) (k : Fin 32) (j : Fin 16) :
    (V m c main_v10 : S256x640.Idx → EReal) (ix2 (lane32 p k) (wide16 q j))
      = (if p = q then (1 : EReal) else 0) * (m ((c : Thread nD τ).loc main_arg1) : S32x80.Idx → EReal) (ix2 k (hi80 j)) := by
  rw [V_wa_term]
  refine (cat_mat_hi _ _ (lane32 p k) q j).trans ?_
  refine (kron_32_16_apply _ _ p q k j).trans ?_
  rw [eye_apply]
  exact congrArg _ (slice2_axis1_apply 64 _ slices_S32x80_S32x16_0_64 k j (hi80 j) rfl)

end Cert.Spike.KerHost

end
-- ==== Proof.KerHost.lean ====
/-
  The five arrays the packed network reads, each at an index, as functions of the program's five arguments.
-/
import proofs.«156992_g2000306523512037_pallasbulk_875_3_alg».proof.Proof.KerHostX
import proofs.«156992_g2000306523512037_pallasbulk_875_3_alg».proof.Proof.KerHostBb
import proofs.«156992_g2000306523512037_pallasbulk_875_3_alg».proof.Proof.KerHostBa
import proofs.«156992_g2000306523512037_pallasbulk_875_3_alg».proof.Proof.KerHostKron
import proofs.«156992_g2000306523512037_pallasbulk_875_3_alg».proof.Proof.KerHostWb
import proofs.«156992_g2000306523512037_pallasbulk_875_3_alg».proof.Proof.KerHostWa
-- ==== Proof.LibBlockDiag.lean ====
/-
  A sum against block-diagonal weights, over the extended reals.

  Let the index set of a sum be in bijection with pairs `(p, k)`, and let the weights vanish off the block `p = q` and be
  `W k` on it — the shape of a column of a Kronecker product of an identity matrix with a weight matrix, which is how a
  program that packs several rows into one lays its weights out. Then the sum of `X c · Wc c` over all indices is the
  sum over `k` alone of `X` at `(q, k)` against `W k`: every other term is a product with zero, and over the extended
  reals a product with zero is zero whatever the other factor (infinite or not), so no finiteness is needed.
-/
import Mathlib.Data.EReal.Basic
import Mathlib.Algebra.BigOperators.Fin
import Mathlib.Data.Fintype.BigOperators

namespace Cert.LibBlockDiag

open scoped BigOperators

/-- A sum over pairs `(p, k)`, re-indexed along a bijection `e`, against weights that are `[p = q] · W k` at `e (p, k)`,
    is the sum over `k` of block `q` alone. -/
theorem sum_blockdiag {ι κ γ : Type} [Fintype ι] [Fintype κ] [Fintype γ] [DecidableEq ι] (e : ι × κ ≃ γ)
    (X Wc : γ → EReal) (W : κ → EReal) (q : ι)
    (hW : ∀ p k, Wc (e (p, k)) = (if p = q then (1 : EReal) else 0) * W k) :
    ∑ c, X c * Wc c = ∑ k, X (e (q, k)) * W k := by
  rw [← e.sum_comp, Fintype.sum_prod_type, Finset.sum_eq_single q]
  · refine Finset.sum_congr rfl fun k _ => ?_
    rw [hW, if_pos rfl, one_mul]
  · intro p _ hp
    refine Finset.sum_eq_zero fun k _ => ?_
    rw [hW, if_neg hp, zero_mul, mul_zero]
  · intro h; exact absurd (Finset.mem_univ q) h

end Cert.LibBlockDiag
-- ==== Proof.SpikeAlgebra.lean ====
/-
  Sums against block-diagonal weights, and the packed arrays.

  The packed first-layer weight matrix has, in row `32 p + k` and column block `q`, the entry `[p = q] · W (k, j)`: eight
  copies of `W` down the diagonal. A sum over the 256 packed lanes of `X c · Wc c` against such a column therefore keeps
  only block `q`: the other terms are products with zero, and over the extended reals a product with zero is zero and
  a sum's zero terms drop out. The same holds for the second layer over 512 packed lanes.
-/
import proofs.«156992_g2000306523512037_pallasbulk_875_3_alg».proof.Proof.SpikeSpec
import proofs.«156992_g2000306523512037_pallasbulk_875_3_alg».proof.Proof.LibBlockDiag

noncomputable section

namespace Cert.Spike

open Idealize.ShloMosaic Idealize.ShloMosaic.ValueIdx
open scoped BigOperators

/-- The 256 lanes of a packed input row as eight groups of 32. -/
def laneEquiv32 : Fin 8 × Fin 32 ≃ Fin 256 where
  toFun a := lane32 a.1 a.2
  invFun c := (⟨c.val / 32, by omega⟩, ⟨c.val % 32, by omega⟩)
  left_inv a := by
    rcases a with ⟨p, k⟩
    refine Prod.ext (Fin.ext ?_) (Fin.ext ?_)
    · show (p.val * 32 + k.val) / 32 = p.val; omega
    · show (p.val * 32 + k.val) % 32 = k.val; omega
  right_inv c := Fin.ext (by show c.val / 32 * 32 + c.val % 32 = c.val; omega)

/-- The 512 lanes of a packed row of interneuron spikes as eight groups of 64. -/
def laneEquiv64 : Fin 8 × Fin 64 ≃ Fin 512 where
  toFun a := lane64 a.1 a.2
  invFun c := (⟨c.val / 64, by omega⟩, ⟨c.val % 64, by omega⟩)
  left_inv a := by
    rcases a with ⟨p, k⟩
    refine Prod.ext (Fin.ext ?_) (Fin.ext ?_)
    · show (p.val * 64 + k.val) / 64 = p.val; omega
    · show (p.val * 64 + k.val) % 64 = k.val; omega
  right_inv c := Fin.ext (by show c.val / 64 * 64 + c.val % 64 = c.val; omega)

/-- Over the 256 packed input lanes, against a block-diagonal column, only block `q` contributes. -/
theorem sum_lanes32 (X Wc : Fin 256 → EReal) (W : Fin 32 → EReal) (q : Fin 8)
    (hW : ∀ p k, Wc (lane32 p k) = (if p = q then (1 : EReal) else 0) * W k) :
    ∑ c, X c * Wc c = ∑ k, X (lane32 q k) * W k :=
  Cert.LibBlockDiag.sum_blockdiag laneEquiv32 X Wc W q hW

/-- Over the 512 packed spike lanes, against a block-diagonal column, only block `q` contributes. -/
theorem sum_lanes64 (X Wc : Fin 512 → EReal) (W : Fin 64 → EReal) (q : Fin 8)
    (hW : ∀ p k, Wc (lane64 p k) = (if p = q then (1 : EReal) else 0) * W k) :
    ∑ c, X c * Wc c = ∑ k, X (lane64 q k) * W k :=
  Cert.LibBlockDiag.sum_blockdiag laneEquiv64 X Wc W q hW

/-! ## The packed result arrays -/

/-- The group a packed lane belongs to, and its place in the group. -/
def grp64 (c : Fin 512) : Fin 8 := ⟨c.val / 64, by omega⟩
def off64 (c : Fin 512) : Fin 64 := ⟨c.val % 64, by omega⟩
def grp16 (c : Fin 128) : Fin 8 := ⟨c.val / 16, by omega⟩
def off16 (c : Fin 128) : Fin 16 := ⟨c.val % 16, by omega⟩

theorem grp64_lane (p : Fin 8) (k : Fin 64) : grp64 (lane64 p k) = p := Fin.ext (by show (p.val * 64 + k.val) / 64 = p.val; omega)
theorem off64_lane (p : Fin 8) (k : Fin 64) : off64 (lane64 p k) = k := Fin.ext (by show (p.val * 64 + k.val) % 64 = k.val; omega)
theorem grp16_lane (p : Fin 8) (k : Fin 16) : grp16 (lane16 p k) = p := Fin.ext (by show (p.val * 16 + k.val) / 16 = p.val; omega)
theorem off16_lane (p : Fin 8) (k : Fin 16) : off16 (lane16 p k) = k := Fin.ext (by show (p.val * 16 + k.val) % 16 = k.val; omega)

section
variable (x : (⟨2, ![262144, 32]⟩ : Shape).Idx → EReal) (w13 : (⟨2, ![32, 80]⟩ : Shape).Idx → EReal)
  (b13 : (⟨2, ![1, 80]⟩ : Shape).Idx → EReal) (w2 : (⟨2, ![64, 16]⟩ : Shape).Idx → EReal)
  (b2 : (⟨2, ![1, 16]⟩ : Shape).Idx → EReal)

/-- The three results with eight rows packed into one: lane `64 p + j` (or `16 p + j`) of packed row `r` holds the
    value at row `8 r + p`, column `j`. -/
def packed1 : (⟨2, ![32768, 512]⟩ : Shape).Idx → EReal := fun i => spike1 x w13 b13 (row8 (i 0) (grp64 (i 1))) (off64 (i 1))
def packed2 : (⟨2, ![32768, 128]⟩ : Shape).Idx → EReal := fun i => spike2 x w13 b13 w2 b2 (row8 (i 0) (grp16 (i 1))) (off16 (i 1))
def packed3 : (⟨2, ![32768, 128]⟩ : Shape).Idx → EReal := fun i => spikeOut x w13 b13 w2 b2 (row8 (i 0) (grp16 (i 1))) (off16 (i 1))

theorem packed1_apply (r : Fin 32768) (p : Fin 8) (j : Fin 64) :
    packed1 x w13 b13 (ix2 r (lane64 p j)) = spike1 x w13 b13 (row8 r p) j := by
  show spike1 x w13 b13 (row8 r (grp64 (lane64 p j))) (off64 (lane64 p j)) = _
  rw [grp64_lane, off64_lane]
theorem packed2_apply (r : Fin 32768) (p : Fin 8) (j : Fin 16) :
    packed2 x w13 b13 w2 b2 (ix2 r (lane16 p j)) = spike2 x w13 b13 w2 b2 (row8 r p) j := by
  show spike2 x w13 b13 w2 b2 (row8 r (grp16 (lane16 p j))) (off16 (lane16 p j)) = _
  rw [grp16_lane, off16_lane]
theorem packed3_apply (r : Fin 32768) (p : Fin 8) (j : Fin 16) :
    packed3 x w13 b13 w2 b2 (ix2 r (lane16 p j)) = spikeOut x w13 b13 w2 b2 (row8 r p) j := by
  show spikeOut x w13 b13 w2 b2 (row8 r (grp16 (lane16 p j))) (off16 (lane16 p j)) = _
  rw [grp16_lane, off16_lane]

end

end Cert.Spike

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.KerBody.lean ====
/-
  The kernel body's stored values read at an index.

  The body multiplies a block of 2048 packed rows (eight input rows side by side, 256 lanes) by a packed weight matrix
  whose column `64 q + j` (or `512 + 16 q + j`) holds `W (k, j)` in row `32 q + k` and zero in every other group of rows.
  So at column `64 q + j` the product is the sum over `k` of lane `32 q + k` of the packed row against `W (k, j)`: row
  `8 r + q` of the input against column `j` of the weights. The second product does the same over 512 lanes of spikes.
  The lemmas are stated for arbitrary operand vectors with the block-diagonal structure as hypotheses.
-/
import proofs.«156992_g2000306523512037_pallasbulk_875_3_alg».proof.Proof.Gen.KernelIdeal.Skeleton
import proofs.«156992_g2000306523512037_pallasbulk_875_3_alg».proof.Proof.SpikeAlgebra
import proofs.«156992_g2000306523512037_pallasbulk_875_3_alg».proof.Proof.LibPlainMatmul
import Idealize.ShloMosaic.Lib.ValueLayout
import Idealize.ShloMosaic.Lib.Pipeline.Value

noncomputable section

namespace Cert.Spike.KerBody

open Idealize.ShloMosaic Idealize.ShloMosaic.ValueIdx Cert.KernelIdeal Cert.KernelIdeal.Gen Cert.Spike Cert.LibPlainMatmul
open scoped BigOperators

variable (x0 : Vec Ideal S2048x256 .f32) (x1 : Vec Ideal S256x640 .f32) (x2 : Vec Ideal S1x640 .f32)
  (x3 : Vec Ideal S512x128 .f32) (x4 : Vec Ideal S1x128 .f32)
variable (w13 : S32x80.Idx → EReal) (b13 : S1x80.Idx → EReal) (w2 : S64x16.Idx → EReal) (b2 : S1x16.Idx → EReal)

/-- The first product plus the bias row, at any column: the sum over the 256 packed lanes. -/
theorem pay2_apply (r : Fin 2048) (c : Fin 640) :
    k0_pay2 (F := Ideal) x0 x1 x2 (ix2 r c) = (∑ l : Fin 256, x0 (ix2 r l) * x1 (ix2 l c)) + x2 (ix2 (0 : Fin 1) c) := by
  unfold k0_pay2
  show FloatOps.matmul dot_S2048x256_S256x640_S2048x640_1_0_0_1_n_n none (shapeCast S2048x256 x0 shapeCasts_S2048x256_S2048x256)
      (shapeCast S256x640 x1 shapeCasts_S256x640_S256x640) (constant (F := Ideal) S2048x640 .f32 0x00000000#32) (ix2 r c)
    + broadcastTo S2048x640 (shapeCast S1x640 x2 shapeCasts_S1x640_S1x640) broadcasts_S1x640_S2048x640 (ix2 r c) = _
  rw [shapeCast_self, shapeCast_self, shapeCast_self]
  refine congrArg₂ (· + ·) ((matmul_zero_plain _ _ _ r c).trans rfl) ?_
  exact broadcastTo_1b_ab_apply _ _ r c

/-- A slice of the first product's columns from `o`. -/
theorem slice_cols {m : Nat} (o : Nat) (X : S2048x640.Idx → EReal) (h : S2048x640.Slices ![0, o] ⟨2, ![2048, m]⟩)
    (r : Fin 2048) (j : Fin m) (k : Fin 640) (hk : k.val = o + j.val) :
    extractStridedSlice ⟨2, ![2048, m]⟩ ![0, o] X h (ix2 r j) = X (ix2 r k) :=
  slice2_axis1_apply o X h r j k hk

section FirstLayer
variable (hwa_lo : ∀ (p q : Fin 8) (k : Fin 32) (j : Fin 64),
    x1 (ix2 (lane32 p k) (wide64 q j)) = (if p = q then (1 : EReal) else 0) * w13 (ix2 k (lo80 j)))
  (hwa_hi : ∀ (p q : Fin 8) (k : Fin 32) (j : Fin 16),
    x1 (ix2 (lane32 p k) (wide16 q j)) = (if p = q then (1 : EReal) else 0) * w13 (ix2 k (hi80 j)))
  (hba_lo : ∀ (q : Fin 8) (j : Fin 64), x2 (ix2 (0 : Fin 1) (wide64 q j)) = b13 (ix2 (0 : Fin 1) (lo80 j)))
  (hba_hi : ∀ (q : Fin 8) (j : Fin 16), x2 (ix2 (0 : Fin 1) (wide16 q j)) = b13 (ix2 (0 : Fin 1) (hi80 j)))

include hwa_lo hba_lo in
/-- The interneuron pre-activation at packed column `64 q + j`: the `q`-th packed row against column `j`. -/
theorem pay2_lo (r : Fin 2048) (q : Fin 8) (j : Fin 64) :
    k0_pay2 (F := Ideal) x0 x1 x2 (ix2 r (wide64 q j))
      = (∑ k : Fin 32, x0 (ix2 r (lane32 q k)) * w13 (ix2 k (lo80 j))) + b13 (ix2 (0 : Fin 1) (lo80 j)) := by
  rw [pay2_apply, hba_lo]
  exact congrArg (· + _) (sum_lanes32 (fun l => x0 (ix2 r l)) (fun l => x1 (ix2 l (wide64 q j))) (fun k => w13 (ix2 k (lo80 j))) q
    (fun p k => hwa_lo p q k j))

include hwa_hi hba_hi in
/-- The direct-path pre-activation at packed column `512 + 16 q + j`. -/
theorem pay2_hi (r : Fin 2048) (q : Fin 8) (j : Fin 16) :
    k0_pay2 (F := Ideal) x0 x1 x2 (ix2 r (wide16 q j))
      = (∑ k : Fin 32, x0 (ix2 r (lane32 q k)) * w13 (ix2 k (hi80 j))) + b13 (ix2 (0 : Fin 1) (hi80 j)) := by
  rw [pay2_apply, hba_hi]
  exact congrArg (· + _) (sum_lanes32 (fun l => x0 (ix2 r l)) (fun l => x1 (ix2 l (wide16 q j))) (fun k => w13 (ix2 k (hi80 j))) q
    (fun p k => hwa_hi p q k j))

/-- The stored interneuron spikes at a lane: the threshold of the first product there. -/
theorem pay3_apply (r : Fin 2048) (c : Fin 512) (c' : Fin 640) (hc : c'.val = c.val) :
    k0_pay3 (F := Ideal) x0 x1 x2 (ix2 r c) = step (k0_pay2 (F := Ideal) x0 x1 x2 (ix2 r c')) := by
  unfold k0_pay3
  show Scalar.select (Ideal.cmp .ogt (extractStridedSlice S2048x512 ![0, 0] (k0_pay2 (F := Ideal) x0 x1 x2) slices_S2048x640_o0_0_S2048x512 (ix2 r c))
      (Ideal.ofBits .f32 0x00000000#32)) (Ideal.ofBits .f32 0x3F800000#32) (Ideal.ofBits .f32 0x00000000#32) = _
  rw [slice_cols 0 _ _ r c c' (by omega)]
  exact select_step _

include hwa_lo hba_lo in
theorem pay3_lane (r : Fin 2048) (q : Fin 8) (j : Fin 64) :
    k0_pay3 (F := Ideal) x0 x1 x2 (ix2 r (lane64 q j))
      = step ((∑ k : Fin 32, x0 (ix2 r (lane32 q k)) * w13 (ix2 k (lo80 j))) + b13 (ix2 (0 : Fin 1) (lo80 j))) := by
  rw [pay3_apply x0 x1 x2 r (lane64 q j) (wide64 q j) rfl, pay2_lo x0 x1 x2 w13 b13 hwa_lo hba_lo]

end FirstLayer

/-- The second product plus its bias row, at any lane: the sum over the 512 packed spike lanes. -/
theorem pay4_apply (r : Fin 2048) (c : Fin 128) :
    k0_pay4 (F := Ideal) x0 x1 x2 x3 x4 (ix2 r c)
      = (∑ l : Fin 512, k0_pay3 (F := Ideal) x0 x1 x2 (ix2 r l) * x3 (ix2 l c)) + x4 (ix2 (0 : Fin 1) c) := by
  unfold k0_pay4
  show FloatOps.matmul dot_S2048x512_S512x128_S2048x128_1_0_0_1_n_n none (k0_pay3 (F := Ideal) x0 x1 x2)
      (shapeCast S512x128 x3 shapeCasts_S512x128_S512x128) (constant (F := Ideal) S2048x128 .f32 0x00000000#32) (ix2 r c)
    + broadcastTo S2048x128 x4 broadcasts_S1x128_S2048x128 (ix2 r c) = _
  rw [shapeCast_self]
  refine congrArg₂ (· + ·) ((matmul_zero_plain _ _ _ r c).trans rfl) ?_
  exact broadcastTo_1b_ab_apply _ _ r c

/-- The stored second-layer spikes: the threshold of the second product. -/
theorem pay5_apply (r : Fin 2048) (c : Fin 128) :
    k0_pay5 (F := Ideal) x0 x1 x2 x3 x4 (ix2 r c) = step (k0_pay4 (F := Ideal) x0 x1 x2 x3 x4 (ix2 r c)) := by
  unfold k0_pay5
  show Scalar.select (Ideal.cmp .ogt (k0_pay4 (F := Ideal) x0 x1 x2 x3 x4 (ix2 r c)) (Ideal.ofBits .f32 0x00000000#32))
      (Ideal.ofBits .f32 0x3F800000#32) (Ideal.ofBits .f32 0x00000000#32) = _
  exact select_step _

/-- The stored output spikes: the threshold of the second product plus the direct path of the first. -/
theorem pay1_apply (r : Fin 2048) (c : Fin 128) (c' : Fin 640) (hc : c'.val = 512 + c.val) :
    k0_pay1 (F := Ideal) (k0_pay6 (F := Ideal) x0 x1 x2 x3 x4) (Scalar.ofBits .f32 0x3F800000#32) (Scalar.ofBits .f32 0x00000000#32) (ix2 r c)
      = step (k0_pay4 (F := Ideal) x0 x1 x2 x3 x4 (ix2 r c) + k0_pay2 (F := Ideal) x0 x1 x2 (ix2 r c')) := by
  unfold k0_pay1 k0_pay6
  show Scalar.select (Ideal.cmp .ogt (k0_pay4 (F := Ideal) x0 x1 x2 x3 x4 (ix2 r c)
        + extractStridedSlice S2048x128 ![0, 512] (k0_pay2 (F := Ideal) x0 x1 x2) slices_S2048x640_o0_512_S2048x128 (ix2 r c))
      (Ideal.ofBits .f32 0x00000000#32)) (Ideal.ofBits .f32 0x3F800000#32) (Ideal.ofBits .f32 0x00000000#32) = _
  rw [slice_cols 512 _ _ r c c' hc]
  exact select_step _

section Layers
variable (hwa_lo : ∀ (p q : Fin 8) (k : Fin 32) (j : Fin 64),
    x1 (ix2 (lane32 p k) (wide64 q j)) = (if p = q then (1 : EReal) else 0) * w13 (ix2 k (lo80 j)))
  (hwa_hi : ∀ (p q : Fin 8) (k : Fin 32) (j : Fin 16),
    x1 (ix2 (lane32 p k) (wide16 q j)) = (if p = q then (1 : EReal) else 0) * w13 (ix2 k (hi80 j)))
  (hba_lo : ∀ (q : Fin 8) (j : Fin 64), x2 (ix2 (0 : Fin 1) (wide64 q j)) = b13 (ix2 (0 : Fin 1) (lo80 j)))
  (hba_hi : ∀ (q : Fin 8) (j : Fin 16), x2 (ix2 (0 : Fin 1) (wide16 q j)) = b13 (ix2 (0 : Fin 1) (hi80 j)))
  (hwb : ∀ (p q : Fin 8) (k : Fin 64) (j : Fin 16),
    x3 (ix2 (lane64 p k) (lane16 q j)) = (if p = q then (1 : EReal) else 0) * w2 (ix2 k j))
  (hbb : ∀ (q : Fin 8) (j : Fin 16), x4 (ix2 (0 : Fin 1) (lane16 q j)) = b2 (ix2 (0 : Fin 1) j))

include hwb hbb in
/-- The second-layer pre-activation at lane `16 q + j`: the `q`-th group of spikes against column `j`. -/
theorem pay4_lane (r : Fin 2048) (q : Fin 8) (j : Fin 16) :
    k0_pay4 (F := Ideal) x0 x1 x2 x3 x4 (ix2 r (lane16 q j))
      = (∑ k : Fin 64, k0_pay3 (F := Ideal) x0 x1 x2 (ix2 r (lane64 q k)) * w2 (ix2 k j)) + b2 (ix2 (0 : Fin 1) j) := by
  rw [pay4_apply, hbb]
  exact congrArg (· + _) (sum_lanes64 (fun l => k0_pay3 (F := Ideal) x0 x1 x2 (ix2 r l)) (fun l => x3 (ix2 l (lane16 q j)))
    (fun k => w2 (ix2 k j)) q (fun p k => hwb p q k j))

/- What a packed row of the block holds of the input: lane `32 q + k` is column `k` of input row `n q`. -/
variable (x : S262144x32.Idx → EReal) (r : Fin 2048) (n : Fin 8 → Fin 262144)
  (hx : ∀ (q : Fin 8) (k : Fin 32), x0 (ix2 r (lane32 q k)) = x (ix2 (n q) k))

include hwa_lo hba_lo hx in
/-- The stored interneuron spikes are the network's. -/
theorem pay3_spec (q : Fin 8) (j : Fin 64) :
    k0_pay3 (F := Ideal) x0 x1 x2 (ix2 r (lane64 q j)) = spike1 x w13 b13 (n q) j := by
  rw [pay3_lane x0 x1 x2 w13 b13 hwa_lo hba_lo]
  unfold spike1 pre1
  simp only [hx]

include hwa_lo hba_lo hwb hbb hx in
/-- The second-layer pre-activation is the network's. -/
theorem pay4_spec (q : Fin 8) (j : Fin 16) :
    k0_pay4 (F := Ideal) x0 x1 x2 x3 x4 (ix2 r (lane16 q j)) = pre2 x w13 b13 w2 b2 (n q) j := by
  rw [pay4_lane x0 x1 x2 x3 x4 w2 b2 hwb hbb]
  unfold pre2
  simp only [pay3_spec x0 x1 x2 w13 b13 hwa_lo hba_lo x r n hx]

include hwa_lo hba_lo hwb hbb hx in
/-- The stored second-layer spikes are the network's. -/
theorem pay5_spec (q : Fin 8) (j : Fin 16) :
    k0_pay5 (F := Ideal) x0 x1 x2 x3 x4 (ix2 r (lane16 q j)) = spike2 x w13 b13 w2 b2 (n q) j := by
  rw [pay5_apply, pay4_spec x0 x1 x2 x3 x4 w13 b13 w2 b2 hwa_lo hba_lo hwb hbb x r n hx]
  rfl

include hwa_lo hwa_hi hba_lo hba_hi hwb hbb hx in
/-- The stored output spikes are the network's. -/
theorem pay1_spec (q : Fin 8) (j : Fin 16) :
    k0_pay1 (F := Ideal) (k0_pay6 (F := Ideal) x0 x1 x2 x3 x4) (Scalar.ofBits .f32 0x3F800000#32) (Scalar.ofBits .f32 0x00000000#32) (ix2 r (lane16 q j))
      = spikeOut x w13 b13 w2 b2 (n q) j := by
  rw [pay1_apply x0 x1 x2 x3 x4 r (lane16 q j) (wide16 q j) (by show 512 + q.val * 16 + j.val = 512 + (q.val * 16 + j.val); omega),
    pay4_spec x0 x1 x2 x3 x4 w13 b13 w2 b2 hwa_lo hba_lo hwb hbb x r n hx, pay2_hi x0 x1 x2 w13 b13 hwa_hi hba_hi]
  unfold spikeOut pre1
  simp only [hx]

end Layers

end Cert.Spike.KerBody

end
-- ==== Proof.KerValue.lean ====
/-
  From the blocks to the arrays: what the kernel's three result arrays hold after the run.

  Grid point `t` works on packed rows `2048 t … 2048 t + 2047`: the input window's block is those rows of the packed
  input, the four weight and bias windows are whole arrays, and each output window's block is those rows of its
  array. Lane `32 q + k` of packed row `R` is column `k` of input row `8 R + q`, so by the body's arithmetic lane
  `64 q + j` (or `16 q + j`) of packed output row `R` is the network's value at row `8 R + q`, column `j`. The blocks
  tile the arrays, so each array ends holding the packed network values everywhere.
-/
import proofs.«156992_g2000306523512037_pallasbulk_875_3_alg».proof.Proof.Gen.KernelIdeal.Frame
import proofs.«156992_g2000306523512037_pallasbulk_875_3_alg».proof.Proof.KerBody

set_option maxRecDepth 16384

noncomputable section

namespace Cert.Spike.KerValue

open Idealize.ShloMosaic Idealize.ShloMosaic.TcCoe Idealize.ShloMosaic.ValueIdx Idealize.SL.Sem
open Cert.KernelIdeal Cert.KernelIdeal.Gen Cert.Spike
open Idealize.ShloMosaic.Pipeline (Dat)

variable (m : (ℓ : Loc nD τ sig) → Buf (Elt Ideal) ℓ) (c : Dev nD)

/-- The five argument arrays as launched. -/
abbrev A0 : S262144x32.Idx → EReal := m ((c : Thread nD τ).loc main_arg0)
abbrev A1 : S32x80.Idx → EReal := m ((c : Thread nD τ).loc main_arg1)
abbrev A2 : S1x80.Idx → EReal := m ((c : Thread nD τ).loc main_arg2)
abbrev A3 : S64x16.Idx → EReal := m ((c : Thread nD τ).loc main_arg3)
abbrev A4 : S1x16.Idx → EReal := m ((c : Thread nD τ).loc main_arg4)

/-- The five arrays the region's input windows stage, as the region finds them. -/
abbrev Vx : S32768x256.Idx → EReal := V m c main_v24
abbrev Vwa : S256x640.Idx → EReal := V m c main_v10
abbrev Vba : S1x640.Idx → EReal := V m c main_v19
abbrev Vwb : S512x128.Idx → EReal := V m c main_v20
abbrev Vbb : S1x128.Idx → EReal := V m c main_v23

/-- What the host lines before the region leave in those arrays: the packed input, the block-diagonal weights (eight
    copies of each weight matrix down the diagonal, the interneuron columns first), and the bias rows repeated eight times. -/
structure HostFacts : Prop where
  x : ∀ (r : Fin 32768) (p : Fin 8) (k : Fin 32), Vx m c (ix2 r (lane32 p k)) = A0 m c (ix2 (row8 r p) k)
  wa_lo : ∀ (p q : Fin 8) (k : Fin 32) (j : Fin 64),
    Vwa m c (ix2 (lane32 p k) (wide64 q j)) = (if p = q then (1 : EReal) else 0) * A1 m c (ix2 k (lo80 j))
  wa_hi : ∀ (p q : Fin 8) (k : Fin 32) (j : Fin 16),
    Vwa m c (ix2 (lane32 p k) (wide16 q j)) = (if p = q then (1 : EReal) else 0) * A1 m c (ix2 k (hi80 j))
  ba_lo : ∀ (q : Fin 8) (j : Fin 64), Vba m c (ix2 (0 : Fin 1) (wide64 q j)) = A2 m c (ix2 (0 : Fin 1) (lo80 j))
  ba_hi : ∀ (q : Fin 8) (j : Fin 16), Vba m c (ix2 (0 : Fin 1) (wide16 q j)) = A2 m c (ix2 (0 : Fin 1) (hi80 j))
  wb : ∀ (p q : Fin 8) (k : Fin 64) (j : Fin 16),
    Vwb m c (ix2 (lane64 p k) (lane16 q j)) = (if p = q then (1 : EReal) else 0) * A3 m c (ix2 k j)
  bb : ∀ (q : Fin 8) (j : Fin 16), Vbb m c (ix2 (0 : Fin 1) (lane16 q j)) = A4 m c (ix2 (0 : Fin 1) j)

theorem hz : (![0, 0] : Fin 2 → Nat) = fun _ => 0 := funext fun a => by fin_cases a <;> rfl

/-- The index maps over the sixteen points: the row windows follow the point, the weight and bias windows stay put. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The input window's block at point `t`: packed rows `2048 t + r`. -/
theorem iblk0_apply (t : Fin cfg0.N) (r : Fin 2048) (l : Fin 256) (R : Fin 32768) (hR : R.val = t.val * 2048 + r.val) :
    (iblk m c 0 t : S2048x256.Idx → EReal) (ix2 r l) = Vx m c (ix2 R l) := by
  show V m c main_v24 (((cfg0.win 0).blk t).view.emb (ix2 r l)) = V m c main_v24 (ix2 R l)
  refine congrArg _ (funext fun a => Fin.ext ?_)
  match a with
  | ⟨0, _⟩ => show win0_0.index t (0 : Fin 2) * 2048 + 1 * r.val = R.val; rw [(idx_facts t).1]; omega
  | ⟨1, _⟩ => show win0_0.index t (1 : Fin 2) * 256 + 1 * l.val = l.val; rw [(idx_facts t).2.1]; omega

/-- The weight and bias windows' blocks are the whole arrays at every point. -/
theorem iblk1_apply (t : Fin cfg0.N) (a : Fin 256) (b : Fin 640) :
    (iblk m c 1 t : S256x640.Idx → EReal) (ix2 a b) = Vwa m c (ix2 a b) := by
  show V m c main_v10 (((cfg0.win 1).blk t).view.emb (ix2 a b)) = V m c main_v10 (ix2 a b)
  refine congrArg _ (funext fun d => Fin.ext ?_)
  match d with
  | ⟨0, _⟩ => show win0_1.index t (0 : Fin 2) * 256 + 1 * a.val = a.val; rw [(idx_facts t).2.2.1]; omega
  | ⟨1, _⟩ => show win0_1.index t (1 : Fin 2) * 640 + 1 * b.val = b.val; rw [(idx_facts t).2.2.2.1]; omega

theorem iblk2_apply (t : Fin cfg0.N) (a : Fin 1) (b : Fin 640) :
    (iblk m c 2 t : S1x640.Idx → EReal) (ix2 a b) = Vba m c (ix2 a b) := by
  show V m c main_v19 (((cfg0.win 2).blk t).view.emb (ix2 a b)) = V m c main_v19 (ix2 a b)
  refine congrArg _ (funext fun d => Fin.ext ?_)
  match d with
  | ⟨0, _⟩ => show win0_2.index t (0 : Fin 2) * 1 + 1 * a.val = a.val; rw [(idx_facts t).2.2.2.2.1]; omega
  | ⟨1, _⟩ => show win0_2.index t (1 : Fin 2) * 640 + 1 * b.val = b.val; rw [(idx_facts t).2.2.2.2.2.1]; omega

theorem iblk3_apply (t : Fin cfg0.N) (a : Fin 512) (b : Fin 128) :
    (iblk m c 3 t : S512x128.Idx → EReal) (ix2 a b) = Vwb m c (ix2 a b) := by
  show V m c main_v20 (((cfg0.win 3).blk t).view.emb (ix2 a b)) = V m c main_v20 (ix2 a b)
  refine congrArg _ (funext fun d => Fin.ext ?_)
  match d with
  | ⟨0, _⟩ => show win0_3.index t (0 : Fin 2) * 512 + 1 * a.val = a.val; rw [(idx_facts t).2.2.2.2.2.2.1]; omega
  | ⟨1, _⟩ => show win0_3.index t (1 : Fin 2) * 128 + 1 * b.val = b.val; rw [(idx_facts t).2.2.2.2.2.2.2.1]; omega

theorem iblk4_apply (t : Fin cfg0.N) (a : Fin 1) (b : Fin 128) :
    (iblk m c 4 t : S1x128.Idx → EReal) (ix2 a b) = Vbb m c (ix2 a b) := by
  show V m c main_v23 (((cfg0.win 4).blk t).view.emb (ix2 a b)) = V m c main_v23 (ix2 a b)
  refine congrArg _ (funext fun d => Fin.ext ?_)
  match d with
  | ⟨0, _⟩ => show win0_4.index t (0 : Fin 2) * 1 + 1 * a.val = a.val; rw [(idx_facts t).2.2.2.2.2.2.2.2.1]; omega
  | ⟨1, _⟩ => show win0_4.index t (1 : Fin 2) * 128 + 1 * b.val = b.val; rw [(idx_facts t).2.2.2.2.2.2.2.2.2.1]; omega

/-- Packed row `2048 t + r`. -/
def prow (t : Fin cfg0.N) (r : Fin 2048) : Fin 32768 := ⟨t.val * 2048 + r.val, by have h := t.isLt; have e : cfg0.N = 16 := N_0; omega⟩

section Blocks
variable (hH : HostFacts m c) (t : Fin cfg0.N)
include hH

theorem blk_wa_lo (p q : Fin 8) (k : Fin 32) (j : Fin 64) :
    (iblk m c 1 t : S256x640.Idx → EReal) (ix2 (lane32 p k) (wide64 q j)) = (if p = q then (1 : EReal) else 0) * A1 m c (ix2 k (lo80 j)) :=
  (iblk1_apply m c t _ _).trans (hH.wa_lo p q k j)
theorem blk_wa_hi (p q : Fin 8) (k : Fin 32) (j : Fin 16) :
    (iblk m c 1 t : S256x640.Idx → EReal) (ix2 (lane32 p k) (wide16 q j)) = (if p = q then (1 : EReal) else 0) * A1 m c (ix2 k (hi80 j)) :=
  (iblk1_apply m c t _ _).trans (hH.wa_hi p q k j)
theorem blk_ba_lo (q : Fin 8) (j : Fin 64) :
    (iblk m c 2 t : S1x640.Idx → EReal) (ix2 (0 : Fin 1) (wide64 q j)) = A2 m c (ix2 (0 : Fin 1) (lo80 j)) :=
  (iblk2_apply m c t _ _).trans (hH.ba_lo q j)
theorem blk_ba_hi (q : Fin 8) (j : Fin 16) :
    (iblk m c 2 t : S1x640.Idx → EReal) (ix2 (0 : Fin 1) (wide16 q j)) = A2 m c (ix2 (0 : Fin 1) (hi80 j)) :=
  (iblk2_apply m c t _ _).trans (hH.ba_hi q j)
theorem blk_wb (p q : Fin 8) (k : Fin 64) (j : Fin 16) :
    (iblk m c 3 t : S512x128.Idx → EReal) (ix2 (lane64 p k) (lane16 q j)) = (if p = q then (1 : EReal) else 0) * A3 m c (ix2 k j) :=
  (iblk3_apply m c t _ _).trans (hH.wb p q k j)
theorem blk_bb (q : Fin 8) (j : Fin 16) :
    (iblk m c 4 t : S1x128.Idx → EReal) (ix2 (0 : Fin 1) (lane16 q j)) = A4 m c (ix2 (0 : Fin 1) j) :=
  (iblk4_apply m c t _ _).trans (hH.bb q j)
theorem blk_x (r : Fin 2048) (q : Fin 8) (k : Fin 32) :
    (iblk m c 0 t : S2048x256.Idx → EReal) (ix2 r (lane32 q k)) = A0 m c (ix2 (row8 (prow t r) q) k) :=
  (iblk0_apply m c t r _ (prow t r) rfl).trans (hH.x (prow t r) q k)

/-- WHAT POINT `t` WRITES BACK to the first result array: its block of the packed interneuron spikes. -/
theorem flushed5_eq :
    (dats m 0 c).flushed 5 t = ((cfg0.win 5).blk t).view.read (Elt Ideal) (packed1 (A0 m c) (A1 m c) (A2 m c)) := by
  show (cfg0.win 5).cut (grid0.coords t) ((dats m 0 c).after 5 t) = _
  rw [after0_5]
  unfold out0_5
  rw [View.canon_unit_zero hz]
  simp only [View.ld_unit_zero (S := S2048x256) hz, View.ld_unit_zero (S := S256x640) hz, View.ld_unit_zero (S := S1x640) hz]
  funext y
  obtain ⟨r, l, rfl⟩ : ∃ (r : Fin 2048) (l : Fin 512), y = ix2 r l := ⟨y 0, y 1, eq_ix2 y⟩
  obtain ⟨q, j, rfl⟩ := lane64_surj l
  show k0_pay3 (F := Ideal) (iblk m c 0 t) (iblk m c 1 t) (iblk m c 2 t) (ix2 r (lane64 q j))
    = packed1 (A0 m c) (A1 m c) (A2 m c) (((cfg0.win 5).blk t).view.emb (ix2 r (lane64 q j)))
  have he : ((cfg0.win 5).blk t).view.emb (ix2 r (lane64 q j)) = ix2 (prow t r) (lane64 q j) := by
    funext a; apply Fin.ext
    match a with
    | ⟨0, _⟩ => show win0_5.index t (0 : Fin 2) * 2048 + 1 * r.val = t.val * 2048 + r.val; rw [(idx_facts t).2.2.2.2.2.2.2.2.2.2.1]; omega
    | ⟨1, _⟩ => show win0_5.index t (1 : Fin 2) * 512 + 1 * (lane64 q j).val = (lane64 q j).val; rw [(idx_facts t).2.2.2.2.2.2.2.2.2.2.2.1]; omega
  rw [he, packed1_apply]
  exact KerBody.pay3_spec (iblk m c 0 t) (iblk m c 1 t) (iblk m c 2 t) (A1 m c) (A2 m c) (blk_wa_lo m c hH t) (blk_ba_lo m c hH t)
    (A0 m c) r (fun q => row8 (prow t r) q) (blk_x m c hH t r) q j

end Blocks

section Blocks2
variable (hH : HostFacts m c) (t : Fin cfg0.N)
include hH

/-- WHAT POINT `t` WRITES BACK to the second result array: its block of the packed second-layer spikes. -/
theorem flushed6_eq :
    (dats m 0 c).flushed 6 t = ((cfg0.win 6).blk t).view.read (Elt Ideal) (packed2 (A0 m c) (A1 m c) (A2 m c) (A3 m c) (A4 m c)) := by
  show (cfg0.win 6).cut (grid0.coords t) ((dats m 0 c).after 6 t) = _
  rw [after0_6]
  unfold out0_6
  rw [View.canon_unit_zero hz]
  simp only [View.ld_unit_zero (S := S2048x256) hz, View.ld_unit_zero (S := S256x640) hz, View.ld_unit_zero (S := S1x640) hz,
    View.ld_unit_zero (S := S512x128) hz, View.ld_unit_zero (S := S1x128) hz]
  funext y
  obtain ⟨r, l, rfl⟩ : ∃ (r : Fin 2048) (l : Fin 128), y = ix2 r l := ⟨y 0, y 1, eq_ix2 y⟩
  obtain ⟨q, j, rfl⟩ := lane16_surj l
  show k0_pay5 (F := Ideal) (iblk m c 0 t) (iblk m c 1 t) (iblk m c 2 t) (iblk m c 3 t) (iblk m c 4 t) (ix2 r (lane16 q j))
    = packed2 (A0 m c) (A1 m c) (A2 m c) (A3 m c) (A4 m c) (((cfg0.win 6).blk t).view.emb (ix2 r (lane16 q j)))
  have he : ((cfg0.win 6).blk t).view.emb (ix2 r (lane16 q j)) = ix2 (prow t r) (lane16 q j) := by
    funext a; apply Fin.ext
    match a with
    | ⟨0, _⟩ => show win0_6.index t (0 : Fin 2) * 2048 + 1 * r.val = t.val * 2048 + r.val; rw [(idx_facts t).2.2.2.2.2.2.2.2.2.2.2.2.1]; omega
    | ⟨1, _⟩ => show win0_6.index t (1 : Fin 2) * 128 + 1 * (lane16 q j).val = (lane16 q j).val; rw [(idx_facts t).2.2.2.2.2.2.2.2.2.2.2.2.2.1]; omega
  rw [he, packed2_apply]
  exact KerBody.pay5_spec (iblk m c 0 t) (iblk m c 1 t) (iblk m c 2 t) (iblk m c 3 t) (iblk m c 4 t) (A1 m c) (A2 m c) (A3 m c) (A4 m c)
    (blk_wa_lo m c hH t) (blk_ba_lo m c hH t) (blk_wb m c hH t) (blk_bb m c hH t)
    (A0 m c) r (fun q => row8 (prow t r) q) (blk_x m c hH t r) q j

/-- WHAT POINT `t` WRITES BACK to the third result array: its block of the packed output spikes. -/
theorem flushed7_eq :
    (dats m 0 c).flushed 7 t = ((cfg0.win 7).blk t).view.read (Elt Ideal) (packed3 (A0 m c) (A1 m c) (A2 m c) (A3 m c) (A4 m c)) := by
  show (cfg0.win 7).cut (grid0.coords t) ((dats m 0 c).after 7 t) = _
  rw [after0_7]
  unfold out0_7
  rw [View.canon_unit_zero hz]
  simp only [View.ld_unit_zero (S := S2048x256) hz, View.ld_unit_zero (S := S256x640) hz, View.ld_unit_zero (S := S1x640) hz,
    View.ld_unit_zero (S := S512x128) hz, View.ld_unit_zero (S := S1x128) hz]
  funext y
  obtain ⟨r, l, rfl⟩ : ∃ (r : Fin 2048) (l : Fin 128), y = ix2 r l := ⟨y 0, y 1, eq_ix2 y⟩
  obtain ⟨q, j, rfl⟩ := lane16_surj l
  show k0_pay1 (F := Ideal) (k0_pay6 (F := Ideal) (iblk m c 0 t) (iblk m c 1 t) (iblk m c 2 t) (iblk m c 3 t) (iblk m c 4 t))
      (Scalar.ofBits .f32 0x3F800000#32) (Scalar.ofBits .f32 0x00000000#32) (ix2 r (lane16 q j))
    = packed3 (A0 m c) (A1 m c) (A2 m c) (A3 m c) (A4 m c) (((cfg0.win 7).blk t).view.emb (ix2 r (lane16 q j)))
  have he : ((cfg0.win 7).blk t).view.emb (ix2 r (lane16 q j)) = ix2 (prow t r) (lane16 q j) := by
    funext a; apply Fin.ext
    match a with
    | ⟨0, _⟩ => show win0_7.index t (0 : Fin 2) * 2048 + 1 * r.val = t.val * 2048 + r.val; rw [(idx_facts t).2.2.2.2.2.2.2.2.2.2.2.2.2.2.1]; omega
    | ⟨1, _⟩ => show win0_7.index t (1 : Fin 2) * 128 + 1 * (lane16 q j).val = (lane16 q j).val; rw [(idx_facts t).2.2.2.2.2.2.2.2.2.2.2.2.2.2.2]; omega
  rw [he, packed3_apply]
  exact KerBody.pay1_spec (iblk m c 0 t) (iblk m c 1 t) (iblk m c 2 t) (iblk m c 3 t) (iblk m c 4 t) (A1 m c) (A2 m c) (A3 m c) (A4 m c)
    (blk_wa_lo m c hH t) (blk_wa_hi m c hH t) (blk_ba_lo m c hH t) (blk_ba_hi m c hH t) (blk_wb m c hH t) (blk_bb m c hH t)
    (A0 m c) r (fun q => row8 (prow t r) q) (blk_x m c hH t r) q j

end Blocks2

/-! ## The blocks tile the arrays -/

/-- An index of a result array is in point `t`'s block iff each coordinate is in the block's range on its axis. -/
theorem mem_blk5 (t : Fin cfg0.N) (i : S32768x512.Idx) :
    i ∈ ((cfg0.win 5).blk t).view.set ↔ ∀ a : Fin 2, win0_5.index t a * S2048x512.size a ≤ (i a).val ∧ (i a).val < win0_5.index t a * S2048x512.size a + S2048x512.size a := by
  show i ∈ ((View.whole main_v25_0).slice (win0_5.rect t)).set ↔ _
  rw [View.set_slice_whole, Rect.mem_set_unit]
  exact Iff.rfl
theorem mem_blk6 (t : Fin cfg0.N) (i : S32768x128.Idx) :
    i ∈ ((cfg0.win 6).blk t).view.set ↔ ∀ a : Fin 2, win0_6.index t a * S2048x128.size a ≤ (i a).val ∧ (i a).val < win0_6.index t a * S2048x128.size a + S2048x128.size a := by
  show i ∈ ((View.whole main_v25_1).slice (win0_6.rect t)).set ↔ _
  rw [View.set_slice_whole, Rect.mem_set_unit]
  exact Iff.rfl
theorem mem_blk7 (t : Fin cfg0.N) (i : S32768x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v25_2).slice (win0_7.rect t)).set ↔ _
  rw [View.set_slice_whole, Rect.mem_set_unit]
  exact Iff.rfl

/-- The point whose block holds packed row `R`: `R / 2048`. -/
def ptOf (R : Fin 32768) : Fin cfg0.N := ⟨R.val / 2048, by have e : cfg0.N = 16 := N_0; omega⟩

theorem cover5 (i : S32768x512.Idx) : ∃ t : Fin cfg0.N, (cfg0.win 5).flush t = true ∧ i ∈ ((cfg0.win 5).blk t).view.set := by
  refine ⟨ptOf (i 0), flush0_5 _, ?_⟩
  rw [mem_blk5]
  have h0 : (i 0).val < 32768 := (i 0).isLt
  have h1 : (i 1).val < 512 := (i 1).isLt
  intro a
  match a with
  | ⟨0, _⟩ =>
    show win0_5.index (ptOf (i 0)) (0 : Fin 2) * 2048 ≤ (i 0).val ∧ (i 0).val < win0_5.index (ptOf (i 0)) (0 : Fin 2) * 2048 + 2048
    rw [(idx_facts (ptOf (i 0))).2.2.2.2.2.2.2.2.2.2.1]
    show (i 0).val / 2048 * 2048 ≤ (i 0).val ∧ (i 0).val < (i 0).val / 2048 * 2048 + 2048
    omega
  | ⟨1, _⟩ =>
    show win0_5.index (ptOf (i 0)) (1 : Fin 2) * 512 ≤ (i 1).val ∧ (i 1).val < win0_5.index (ptOf (i 0)) (1 : Fin 2) * 512 + 512
    rw [(idx_facts (ptOf (i 0))).2.2.2.2.2.2.2.2.2.2.2.1]
    omega

theorem cover6 (i : S32768x128.Idx) : ∃ t : Fin cfg0.N, (cfg0.win 6).flush t = true ∧ i ∈ ((cfg0.win 6).blk t).view.set := by
  refine ⟨ptOf (i 0), flush0_6 _, ?_⟩
  rw [mem_blk6]
  have h0 : (i 0).val < 32768 := (i 0).isLt
  have h1 : (i 1).val < 128 := (i 1).isLt
  intro a
  match a with
  | ⟨0, _⟩ =>
    show win0_6.index (ptOf (i 0)) (0 : Fin 2) * 2048 ≤ (i 0).val ∧ (i 0).val < win0_6.index (ptOf (i 0)) (0 : Fin 2) * 2048 + 2048
    rw [(idx_facts (ptOf (i 0))).2.2.2.2.2.2.2.2.2.2.2.2.1]
    show (i 0).val / 2048 * 2048 ≤ (i 0).val ∧ (i 0).val < (i 0).val / 2048 * 2048 + 2048
    omega
  | ⟨1, _⟩ =>
    show win0_6.index (ptOf (i 0)) (1 : Fin 2) * 128 ≤ (i 1).val ∧ (i 1).val < win0_6.index (ptOf (i 0)) (1 : Fin 2) * 128 + 128
    rw [(idx_facts (ptOf (i 0))).2.2.2.2.2.2.2.2.2.2.2.2.2.1]
    omega

theorem cover7 (i : S32768x128.Idx) : ∃ t : Fin cfg0.N, (cfg0.win 7).flush t = true ∧ i ∈ ((cfg0.win 7).blk t).view.set := by
  refine ⟨ptOf (i 0), flush0_7 _, ?_⟩
  rw [mem_blk7]
  have h0 : (i 0).val < 32768 := (i 0).isLt
  have h1 : (i 1).val < 128 := (i 1).isLt
  intro a
  match a with
  | ⟨0, _⟩ =>
    show win0_7.index (ptOf (i 0)) (0 : Fin 2) * 2048 ≤ (i 0).val ∧ (i 0).val < win0_7.index (ptOf (i 0)) (0 : Fin 2) * 2048 + 2048
    rw [(idx_facts (ptOf (i 0))).2.2.2.2.2.2.2.2.2.2.2.2.2.2.1]
    show (i 0).val / 2048 * 2048 ≤ (i 0).val ∧ (i 0).val < (i 0).val / 2048 * 2048 + 2048
    omega
  | ⟨1, _⟩ =>
    show win0_7.index (ptOf (i 0)) (1 : Fin 2) * 128 ≤ (i 1).val ∧ (i 1).val < win0_7.index (ptOf (i 0)) (1 : Fin 2) * 128 + 128
    rw [(idx_facts (ptOf (i 0))).2.2.2.2.2.2.2.2.2.2.2.2.2.2.2]
    omega

/-! ## The three arrays after the region -/

section Final
variable (hH : HostFacts m c)
include hH

theorem final5 : (dats m 0 c).arrAt 5 cfg0.N = packed1 (A0 m c) (A1 m c) (A2 m c) :=
  (dats m 0 c).arrAt_eq_of_cover 5 (packed1 (A0 m c) (A1 m c) (A2 m c)) (fun t _ => flushed5_eq m c hH t) (cover5)
theorem final6 : (dats m 0 c).arrAt 6 cfg0.N = packed2 (A0 m c) (A1 m c) (A2 m c) (A3 m c) (A4 m c) :=
  (dats m 0 c).arrAt_eq_of_cover 6 (packed2 (A0 m c) (A1 m c) (A2 m c) (A3 m c) (A4 m c)) (fun t _ => flushed6_eq m c hH t) (cover6)
theorem final7 : (dats m 0 c).arrAt 7 cfg0.N = packed3 (A0 m c) (A1 m c) (A2 m c) (A3 m c) (A4 m c) :=
  (dats m 0 c).arrAt_eq_of_cover 7 (packed3 (A0 m c) (A1 m c) (A2 m c) (A3 m c) (A4 m c)) (fun t _ => flushed7_eq m c hH t) (cover7)

end Final

end Cert.Spike.KerValue

end
-- ==== Proof.KerRun.lean ====
/-
  The kernel's run, read: after the region the three packed arrays are cast back to one row per input row, and lane
  `64 p + j` (or `16 p + j`) of packed row `R` lands at row `8 R + p`, column `j` — the same row-major position. So each
  result array holds the network's value at every index.
-/
import proofs.«156992_g2000306523512037_pallasbulk_875_3_alg».proof.Proof.KerValue
import Idealize.ShloMosaic.Lib.StableHlo.Run

set_option maxRecDepth 16384

noncomputable section

namespace Cert.Spike.KerRun

open Idealize.ShloMosaic Idealize.ShloMosaic.TcCoe Idealize.ShloMosaic.ValueIdx Idealize.SL.Sem
open Cert.KernelIdeal Cert.KernelIdeal.Gen Cert.Spike Cert.Spike.KerValue
open Idealize.ShloMosaic.Pipeline (Dat)

/-- A packed array of 512 lanes cast back to 64 columns: row `8 R + p`, column `j` is lane `64 p + j` of packed row `R`. -/
theorem unpack64 (X : S32768x512.Idx → EReal) (R : Fin 32768) (p : Fin 8) (j : Fin 64) :
    shapeCast S262144x64 X shapeCasts_S32768x512_S262144x64 (ix2 (row8 R p) j) = X (ix2 R (lane64 p j)) :=
  shapeCast_apply X _ _ _ (by
    rw [Shape.rowMajor_val_two, Shape.rowMajor_val_two]
    show R.val * 512 + (p.val * 64 + j.val) = (R.val * 8 + p.val) * 64 + j.val
    omega)

/-- A packed array of 128 lanes cast back to 16 columns: row `8 R + p`, column `j` is lane `16 p + j` of packed row `R`. -/
theorem unpack16 (X : S32768x128.Idx → EReal) (R : Fin 32768) (p : Fin 8) (j : Fin 16) :
    shapeCast S262144x16 X shapeCasts_S32768x128_S262144x16 (ix2 (row8 R p) j) = X (ix2 R (lane16 p j)) :=
  shapeCast_apply X _ _ _ (by
    rw [Shape.rowMajor_val_two, Shape.rowMajor_val_two]
    show R.val * 128 + (p.val * 16 + j.val) = (R.val * 8 + p.val) * 16 + j.val
    omega)

variable (m : (ℓ : Loc nD τ sig) → Buf (Elt Ideal) ℓ) (ρ : Dev nD → PrngReg) (c : Dev nD)

/-- The region's three arrays, as the lines after the region find them. -/
theorem arr5 : Pipeline.withArrays spec0 c (V0 m c) (fun w => (dats m 0 c).arrAt w cfg0.N) (Proc.devRef .tc main_v25_0) = (dats m 0 c).arrAt 5 cfg0.N :=
  Pipeline.withArrays_arr spec0 launch0.win.arr_inj c (V0 m c) (fun w => (dats m 0 c).arrAt w cfg0.N) 5
theorem arr6 : Pipeline.withArrays spec0 c (V0 m c) (fun w => (dats m 0 c).arrAt w cfg0.N) (Proc.devRef .tc main_v25_1) = (dats m 0 c).arrAt 6 cfg0.N :=
  Pipeline.withArrays_arr spec0 launch0.win.arr_inj c (V0 m c) (fun w => (dats m 0 c).arrAt w cfg0.N) 6
theorem arr7 : Pipeline.withArrays spec0 c (V0 m c) (fun w => (dats m 0 c).arrAt w cfg0.N) (Proc.devRef .tc main_v25_2) = (dats m 0 c).arrAt 7 cfg0.N :=
  Pipeline.withArrays_arr spec0 launch0.win.arr_inj c (V0 m c) (fun w => (dats m 0 c).arrAt w cfg0.N) 7

/-- The first result: the first packed array cast back. -/
theorem tail26 :
    (Pipeline.afterTail₀ cfgs (dats m) 0 (V0 m) [hostOps1] c main_v26 : S262144x64.Idx → EReal)
      = shapeCast S262144x64 ((dats m 0 c).arrAt 5 cfg0.N : S32768x512.Idx → EReal) shapeCasts_S32768x512_S262144x64 := by
  unfold Pipeline.afterTail₀
  show StableHlo.after hostOps1 _ (Proc.devRef .tc main_v26) = _
  after_results
  funext i
  show shapeCast S262144x64 (Pipeline.withArrays spec0 c (V0 m c) (fun w => (dats m 0 c).arrAt w cfg0.N) (Proc.devRef .tc main_v25_0)) shapeCasts_S32768x512_S262144x64 i = _
  rw [arr5]

theorem tail27 :
    (Pipeline.afterTail₀ cfgs (dats m) 0 (V0 m) [hostOps1] c main_v27 : S262144x16.Idx → EReal)
      = shapeCast S262144x16 ((dats m 0 c).arrAt 6 cfg0.N : S32768x128.Idx → EReal) shapeCasts_S32768x128_S262144x16 := by
  unfold Pipeline.afterTail₀
  show StableHlo.after hostOps1 _ (Proc.devRef .tc main_v27) = _
  after_results
  funext i
  show shapeCast S262144x16 (Pipeline.withArrays spec0 c (V0 m c) (fun w => (dats m 0 c).arrAt w cfg0.N) (Proc.devRef .tc main_v25_1)) shapeCasts_S32768x128_S262144x16 i = _
  rw [arr6]

theorem tail28 :
    (Pipeline.afterTail₀ cfgs (dats m) 0 (V0 m) [hostOps1] c main_v28 : S262144x16.Idx → EReal)
      = shapeCast S262144x16 ((dats m 0 c).arrAt 7 cfg0.N : S32768x128.Idx → EReal) shapeCasts_S32768x128_S262144x16 := by
  unfold Pipeline.afterTail₀
  show StableHlo.after hostOps1 _ (Proc.devRef .tc main_v28) = _
  after_results
  funext i
  show shapeCast S262144x16 (Pipeline.withArrays spec0 c (V0 m c) (fun w => (dats m 0 c).arrAt w cfg0.N) (Proc.devRef .tc main_v25_2)) shapeCasts_S32768x128_S262144x16 i = _
  rw [arr7]

section Results
variable (hH : HostFacts m c)
include hH

/-- The three results are the network's three arrays. -/
theorem result26 :
    (Pipeline.afterTail₀ cfgs (dats m) 0 (V0 m) [hostOps1] c main_v26 : S262144x64.Idx → EReal) = out1 (A0 m c) (A1 m c) (A2 m c) := by
  rw [tail26, final5 m c hH]
  funext i
  obtain ⟨n, j, rfl⟩ : ∃ (n : Fin 262144) (j : Fin 64), i = ix2 n j := ⟨i 0, i 1, eq_ix2 i⟩
  obtain ⟨R, p, rfl⟩ := row8_surj n
  rw [unpack64, packed1_apply, out1_apply]

theorem result27 :
    (Pipeline.afterTail₀ cfgs (dats m) 0 (V0 m) [hostOps1] c main_v27 : S262144x16.Idx → EReal)
      = out2 (A0 m c) (A1 m c) (A2 m c) (A3 m c) (A4 m c) := by
  rw [tail27, final6 m c hH]
  funext i
  obtain ⟨n, j, rfl⟩ : ∃ (n : Fin 262144) (j : Fin 16), i = ix2 n j := ⟨i 0, i 1, eq_ix2 i⟩
  obtain ⟨R, p, rfl⟩ := row8_surj n
  rw [unpack16, packed2_apply, out2_apply]

theorem result28 :
    (Pipeline.afterTail₀ cfgs (dats m) 0 (V0 m) [hostOps1] c main_v28 : S262144x16.Idx → EReal)
      = out3 (A0 m c) (A1 m c) (A2 m c) (A3 m c) (A4 m c) := by
  rw [tail28, final7 m c hH]
  funext i
  obtain ⟨n, j, rfl⟩ : ∃ (n : Fin 262144) (j : Fin 16), i = ix2 n j := ⟨i 0, i 1, eq_ix2 i⟩
  obtain ⟨R, p, rfl⟩ := row8_surj n
  rw [unpack16, packed3_apply, out3_apply]

end Results

/-- THE KERNEL'S RUN: every weakly fair execution ends with the three results at the network's three arrays of the
    arguments, and the arguments unchanged. -/
theorem run (hH : ∀ c, HostFacts m c) :
    θ_run defs (onTc (τ := τ) (main (F := Ideal))) ⟨m, fun _ => 0, ρ⟩ (fun r => ∀ c : Dev nD,
      r.2.mem ((c.tc : Thread nD τ).loc main_v26) = out1 (A0 m c) (A1 m c) (A2 m c)
      ∧ r.2.mem ((c.tc : Thread nD τ).loc main_v27) = out2 (A0 m c) (A1 m c) (A2 m c) (A3 m c) (A4 m c)
      ∧ r.2.mem ((c.tc : Thread nD τ).loc main_v28) = out3 (A0 m c) (A1 m c) (A2 m c) (A3 m c) (A4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v26 (Pipeline.mem_restRefs_of main_v26 (by decide) (by decide))).trans (result26 m c (hH c)),
     ((h c).2 main_v27 (Pipeline.mem_restRefs_of main_v27 (by decide) (by decide))).trans (result27 m c (hH c)),
     ((h c).2 main_v28 (Pipeline.mem_restRefs_of main_v28 (by decide) (by decide))).trans (result28 m c (hH c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.Spike.KerRun

end
-- ==== Proof.RefPay.lean ====
/-
  The plain network's body, read at one position of its block. A block holds 256 consecutive rows of the input; the
  body sees that block together with the whole of both weight matrices and both biases. At row p of the block and
  column j the body's five values are, in turn: the fused first layer before its threshold (a 32-term sum plus a
  bias), the interneuron spikes (its first 64 columns thresholded at zero), the second layer before its threshold
  (a 64-term sum over the spikes plus a bias), the second-layer spikes, and the output spikes (the second layer plus
  the last 16 first-layer columns, thresholded). Each is stated against the network of the specification at row n of
  the whole input, for any n whose row the block's row p is.
-/
import proofs.«156992_g2000306523512037_pallasbulk_875_3_alg».proof.Proof.Gen.ReferenceIdeal.Skeleton
import proofs.«156992_g2000306523512037_pallasbulk_875_3_alg».proof.Proof.SpikeSpec
import proofs.«156992_g2000306523512037_pallasbulk_875_3_alg».proof.Proof.LibPlainMatmul
import Idealize.ShloMosaic.Lib.ValueLayout

noncomputable section

namespace Cert.Spike.Ref

open Idealize.ShloMosaic Idealize.ShloMosaic.ValueIdx
open Cert.ReferenceIdeal Cert.ReferenceIdeal.Gen
open scoped BigOperators

section
variable (xb : Vec Ideal S256x32 .f32) (w13b : Vec Ideal S32x80 .f32) (b13b : Vec Ideal S1x80 .f32)
  (w2b : Vec Ideal S64x16 .f32) (b2b : Vec Ideal S1x16 .f32)
  (x : (⟨2, ![262144, 32]⟩ : Shape).Idx → EReal) (w13 : (⟨2, ![32, 80]⟩ : Shape).Idx → EReal)
  (b13 : (⟨2, ![1, 80]⟩ : Shape).Idx → EReal) (w2 : (⟨2, ![64, 16]⟩ : Shape).Idx → EReal)
  (b2 : (⟨2, ![1, 16]⟩ : Shape).Idx → EReal)
  (n : Fin 262144) (p : Fin 256)

/-- The first layer before its threshold: row p of the block against column j of the weights, plus the bias, is the
    specification's first layer at row n when row p of the block is row n of the input. -/
theorem pay1_apply (hx : ∀ k : Fin 32, xb (ix2 p k) = x (ix2 n k)) (hw : w13b = w13) (hb : b13b = b13) (j : Fin 80) :
    k0_pay1 (F := Ideal) xb w13b b13b (ix2 p j) = pre1 x w13 b13 n j := by
  subst hw hb
  unfold k0_pay1 pre1
  show (matmul (φ₁ := .f32) (φ₂ := .f32) dot_S256x32_S32x80_S256x80_1_0_0_1_n_n none xb w13b (constant (F := Ideal) S256x80 .f32 0x00000000#32)) (ix2 p j)
      + (broadcastTo S256x80 b13b broadcasts_S1x80_S256x80) (ix2 p j) = _
  have e1 : (matmul (φ₁ := .f32) (φ₂ := .f32) dot_S256x32_S32x80_S256x80_1_0_0_1_n_n none xb w13b (constant (F := Ideal) S256x80 .f32 0x00000000#32)) (ix2 p j)
      = ∑ k : Fin 32, x (ix2 n k) * w13b (ix2 k j) :=
    (Cert.LibPlainMatmul.matmul_zero_plain (φ₁ := .f32) (φ₂ := .f32) _ _ _ p j).trans
      (Finset.sum_congr rfl fun k _ => congrArg (· * w13b (ix2 k j)) (hx k))
  have e2 : (broadcastTo S256x80 b13b broadcasts_S1x80_S256x80) (ix2 p j) = b13b (ix2 (0 : Fin 1) j) :=
    broadcastTo_1b_ab_apply _ _ p j
  rw [e1, e2]

/-- The interneuron spikes: the first 64 first-layer columns, thresholded at zero. -/
theorem pay2_apply (hx : ∀ k : Fin 32, xb (ix2 p k) = x (ix2 n k)) (hw : w13b = w13) (hb : b13b = b13) (j : Fin 64) :
    k0_pay2 (F := Ideal) xb w13b b13b (ix2 p j) = spike1 x w13 b13 n j := by
  unfold k0_pay2 spike1
  have e : extractStridedSlice S256x64 ![0, 0] (k0_pay1 (F := Ideal) xb w13b b13b) slices_S256x80_o0_0_S256x64 (ix2 p j)
      = pre1 x w13 b13 n (lo80 j) :=
    (slice2_axis1_apply 0 _ _ p j (lo80 j) (by show j.val = 0 + j.val; omega)).trans
      (pay1_apply xb w13b b13b x w13 b13 n p hx hw hb (lo80 j))
  exact (congrArg (fun v : EReal => FloatOps.sitofp (F := Ideal) .f32
      ((FloatOps.cmpf (F := Ideal) .ogt v (Scalar.ofBits (F := Ideal) .f32 0x00000000#32)).setWidth 32)) e).trans (sitofp_step _)

/-- The second layer before its threshold: the spikes of row p against column j of the second weights, plus its bias. -/
theorem pay3_apply (hx : ∀ k : Fin 32, xb (ix2 p k) = x (ix2 n k)) (hw : w13b = w13) (hb : b13b = b13)
    (hw2 : w2b = w2) (hb2 : b2b = b2) (j : Fin 16) :
    k0_pay3 (F := Ideal) xb w13b b13b w2b b2b (ix2 p j) = pre2 x w13 b13 w2 b2 n j := by
  subst hw2 hb2
  unfold k0_pay3 pre2
  show (matmul (φ₁ := .f32) (φ₂ := .f32) dot_S256x64_S64x16_S256x16_1_0_0_1_n_n none (k0_pay2 (F := Ideal) xb w13b b13b) w2b (constant (F := Ideal) S256x16 .f32 0x00000000#32)) (ix2 p j)
      + (broadcastTo S256x16 b2b broadcasts_S1x16_S256x16) (ix2 p j) = _
  have e1 : (matmul (φ₁ := .f32) (φ₂ := .f32) dot_S256x64_S64x16_S256x16_1_0_0_1_n_n none (k0_pay2 (F := Ideal) xb w13b b13b) w2b (constant (F := Ideal) S256x16 .f32 0x00000000#32)) (ix2 p j)
      = ∑ k : Fin 64, spike1 x w13 b13 n k * w2b (ix2 k j) :=
    (Cert.LibPlainMatmul.matmul_zero_plain (φ₁ := .f32) (φ₂ := .f32) _ _ _ p j).trans
      (Finset.sum_congr rfl fun k _ => congrArg (· * w2b (ix2 k j)) (pay2_apply xb w13b b13b x w13 b13 n p hx hw hb k))
  have e2 : (broadcastTo S256x16 b2b broadcasts_S1x16_S256x16) (ix2 p j) = b2b (ix2 (0 : Fin 1) j) :=
    broadcastTo_1b_ab_apply _ _ p j
  rw [e1, e2]

/-- The second-layer spikes. -/
theorem pay4_apply (hx : ∀ k : Fin 32, xb (ix2 p k) = x (ix2 n k)) (hw : w13b = w13) (hb : b13b = b13)
    (hw2 : w2b = w2) (hb2 : b2b = b2) (j : Fin 16) :
    k0_pay4 (F := Ideal) xb w13b b13b w2b b2b (ix2 p j) = spike2 x w13 b13 w2 b2 n j := by
  unfold k0_pay4 spike2
  exact (congrArg (fun v : EReal => FloatOps.sitofp (F := Ideal) .f32
      ((FloatOps.cmpf (F := Ideal) .ogt v (Scalar.ofBits (F := Ideal) .f32 0x00000000#32)).setWidth 32))
      (pay3_apply xb w13b b13b w2b b2b x w13 b13 w2 b2 n p hx hw hb hw2 hb2 j)).trans (sitofp_step _)

/-- The output spikes: the second layer plus the direct first-layer path (first-layer column 64 + j), thresholded. -/
theorem pay5_apply (hx : ∀ k : Fin 32, xb (ix2 p k) = x (ix2 n k)) (hw : w13b = w13) (hb : b13b = b13)
    (hw2 : w2b = w2) (hb2 : b2b = b2) (j : Fin 16) :
    k0_pay5 (F := Ideal) xb w13b b13b w2b b2b (ix2 p j) = spikeOut x w13 b13 w2 b2 n j := by
  unfold k0_pay5 spikeOut
  have e : extractStridedSlice S256x16 ![0, 64] (k0_pay1 (F := Ideal) xb w13b b13b) slices_S256x80_o0_64_S256x16 (ix2 p j)
      = pre1 x w13 b13 n (hi80 j) :=
    (slice2_axis1_apply 64 _ _ p j (hi80 j) (by show 64 + j.val = 64 + j.val; rfl)).trans
      (pay1_apply xb w13b b13b x w13 b13 n p hx hw hb (hi80 j))
  have e' : k0_pay3 (F := Ideal) xb w13b b13b w2b b2b (ix2 p j)
        + extractStridedSlice S256x16 ![0, 64] (k0_pay1 (F := Ideal) xb w13b b13b) slices_S256x80_o0_64_S256x16 (ix2 p j)
      = pre2 x w13 b13 w2 b2 n j + pre1 x w13 b13 n (hi80 j) := by
    rw [e, pay3_apply xb w13b b13b w2b b2b x w13 b13 w2 b2 n p hx hw hb hw2 hb2 j]
  exact (congrArg (fun v : EReal => FloatOps.sitofp (F := Ideal) .f32
      ((FloatOps.cmpf (F := Ideal) .ogt v (Scalar.ofBits (F := Ideal) .f32 0x00000000#32)).setWidth 32)) e').trans (sitofp_step _)

end

end Cert.Spike.Ref

end
-- ==== Proof.RefSide.lean ====
/-
  The plain network's run, read as whole arrays. Its grid has 1024 points; at point t the three result blocks hold rows
  256 t … 256 t + 255 of the three results, computed from rows 256 t … 256 t + 255 of the input and from the whole of
  both weight matrices and both biases (their blocks never move). So what point t writes back is block t of the
  specification's three result arrays, every row n lies in the block of point n / 256, and after the run the three
  result arrays are the specification's, the five arguments unchanged.
-/
import proofs.«156992_g2000306523512037_pallasbulk_875_3_alg».proof.Defs
import proofs.«156992_g2000306523512037_pallasbulk_875_3_alg».proof.Proof.Gen.ReferenceIdeal.Value
import proofs.«156992_g2000306523512037_pallasbulk_875_3_alg».proof.Proof.SpikeSpec
import proofs.«156992_g2000306523512037_pallasbulk_875_3_alg».proof.Proof.RefPay
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.Spike.Ref

open Cert.ReferenceIdeal Cert.ReferenceIdeal.Gen Cert.ReferenceIdeal.Value

variable (m : (ℓ : Loc nD τ sig) → Buf (Elt Ideal) ℓ) (ρ : Dev nD → PrngReg)

theorem hz : (![0, 0] : Fin 2 → Nat) = fun _ => 0 := funext fun a => by fin_cases a <;> rfl

/-! ## Where each block sits -/

/-- At point t the input's block and the three results' blocks are block t along the rows; the weights' and biases'
    blocks are the whole arrays. Decided over the 1024 points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem pt_lt (t : Fin cfg0.N) : t.val < 1024 := lt_of_lt_of_eq t.isLt (N_0 : cfg0.N = 1024)

/-- Row p of point t's block is row 256 t + p of the whole array. -/
def rowAt (t : Fin cfg0.N) (p : Fin 256) : Fin 262144 := ⟨t.val * 256 + p.val, by have := pt_lt t; omega⟩

/-! ## The input blocks as parts of the argument arrays -/

/-- Row p of the input's block at point t is row 256 t + p of the input. -/
theorem iblk0_apply (c : Dev nD) (t : Fin cfg0.N) (p : Fin 256) (k : Fin 32) :
    (iblk m c 0 t : Vec Ideal S256x32 .f32) (ix2 p k)
      = (m ((c : Thread nD τ).loc main_arg0) : S262144x32.Idx → EReal) (ix2 (rowAt t p) k) := by
  obtain ⟨e0, e1, -⟩ := idx_facts t
  unfold iblk
  rw [View.read_apply]
  show V m c main_arg0 _ = m (c.tc.loc main_arg0) _
  unfold V
  congr 1
  funext a
  apply Fin.ext
  match a with
  | ⟨0, _⟩ => show win0_0.index t 0 * 256 + 1 * p.val = t.val * 256 + p.val; rw [e0]; omega
  | ⟨1, _⟩ => show win0_0.index t 1 * 32 + 1 * k.val = k.val; rw [e1]; omega

/-- The first-layer weights' block is the whole matrix. -/
theorem iblk1_eq (c : Dev nD) (t : Fin cfg0.N) :
    (iblk m c 1 t : Vec Ideal S32x80 .f32) = (m ((c : Thread nD τ).loc main_arg1) : S32x80.Idx → EReal) := by
  obtain ⟨-, -, e0, e1, -⟩ := idx_facts t
  funext y
  unfold iblk
  rw [View.read_apply]
  show V m c main_arg1 _ = m (c.tc.loc main_arg1) y
  unfold V
  congr 1
  funext a
  apply Fin.ext
  match a with
  | ⟨0, _⟩ => show win0_1.index t 0 * 32 + 1 * (y 0).val = (y 0).val; rw [e0]; omega
  | ⟨1, _⟩ => show win0_1.index t 1 * 80 + 1 * (y 1).val = (y 1).val; rw [e1]; omega

/-- The first-layer bias's block is the whole row. -/
theorem iblk2_eq (c : Dev nD) (t : Fin cfg0.N) :
    (iblk m c 2 t : Vec Ideal S1x80 .f32) = (m ((c : Thread nD τ).loc main_arg2) : S1x80.Idx → EReal) := by
  obtain ⟨-, -, -, -, e0, e1, -⟩ := idx_facts t
  funext y
  unfold iblk
  rw [View.read_apply]
  show V m c main_arg2 _ = m (c.tc.loc main_arg2) y
  unfold V
  congr 1
  funext a
  apply Fin.ext
  match a with
  | ⟨0, _⟩ => show win0_2.index t 0 * 1 + 1 * (y 0).val = (y 0).val; rw [e0]; omega
  | ⟨1, _⟩ => show win0_2.index t 1 * 80 + 1 * (y 1).val = (y 1).val; rw [e1]; omega

/-- The second-layer weights' block is the whole matrix. -/
theorem iblk3_eq (c : Dev nD) (t : Fin cfg0.N) :
    (iblk m c 3 t : Vec Ideal S64x16 .f32) = (m ((c : Thread nD τ).loc main_arg3) : S64x16.Idx → EReal) := by
  obtain ⟨-, -, -, -, -, -, e0, e1, -⟩ := idx_facts t
  funext y
  unfold iblk
  rw [View.read_apply]
  show V m c main_arg3 _ = m (c.tc.loc main_arg3) y
  unfold V
  congr 1
  funext a
  apply Fin.ext
  match a with
  | ⟨0, _⟩ => show win0_3.index t 0 * 64 + 1 * (y 0).val = (y 0).val; rw [e0]; omega
  | ⟨1, _⟩ => show win0_3.index t 1 * 16 + 1 * (y 1).val = (y 1).val; rw [e1]; omega

/-- The second-layer bias's block is the whole row. -/
theorem iblk4_eq (c : Dev nD) (t : Fin cfg0.N) :
    (iblk m c 4 t : Vec Ideal S1x16 .f32) = (m ((c : Thread nD τ).loc main_arg4) : S1x16.Idx → EReal) := by
  obtain ⟨-, -, -, -, -, -, -, -, e0, e1, -⟩ := idx_facts t
  funext y
  unfold iblk
  rw [View.read_apply]
  show V m c main_arg4 _ = m (c.tc.loc main_arg4) y
  unfold V
  congr 1
  funext a
  apply Fin.ext
  match a with
  | ⟨0, _⟩ => show win0_4.index t 0 * 1 + 1 * (y 0).val = (y 0).val; rw [e0]; omega
  | ⟨1, _⟩ => show win0_4.index t 1 * 16 + 1 * (y 1).val = (y 1).val; rw [e1]; omega

/-! ## What each point writes back -/

/-- The interneuron spikes: point t writes back block t of the specification's first result. -/
theorem flushed5_eq (c : Dev nD) (t : Fin cfg0.N) :
    (dats m 0 c).flushed 5 t = ((cfg0.win 5).blk t).view.read (Elt Ideal)
      (out1 (m ((c : Thread nD τ).loc main_arg0)) (m ((c : Thread nD τ).loc main_arg1)) (m ((c : Thread nD τ).loc main_arg2))) := by
  rw [Value.flushed5 m c t]
  unfold out0_5
  rw [View.canon_unit_zero hz]
  simp only [View.ld_unit_zero (S := S256x32) hz, View.ld_unit_zero (S := S32x80) hz, View.ld_unit_zero (S := S1x80) hz]
  obtain ⟨-, -, -, -, -, -, -, -, -, -, e0, e1, -⟩ := idx_facts t
  funext y
  obtain ⟨p, j, rfl⟩ : ∃ (p : Fin 256) (j : Fin 64), y = ix2 p j := ⟨y 0, y 1, eq_ix2 y⟩
  show k0_pay2 (F := Ideal) (iblk m c 0 t) (iblk m c 1 t) (iblk m c 2 t) (ix2 p j)
    = out1 (m (c.tc.loc main_arg0)) (m (c.tc.loc main_arg1)) (m (c.tc.loc main_arg2)) (((cfg0.win 5).blk t).view.emb (ix2 p j))
  have he : ((cfg0.win 5).blk t).view.emb (ix2 p j) = (ix2 (rowAt t p) j : S262144x64.Idx) := by
    funext a
    apply Fin.ext
    match a with
    | ⟨0, _⟩ => show win0_5.index t 0 * 256 + 1 * p.val = t.val * 256 + p.val; rw [e0]; omega
    | ⟨1, _⟩ => show win0_5.index t 1 * 64 + 1 * j.val = j.val; rw [e1]; omega
  rw [he]
  exact pay2_apply _ _ _ _ _ _ (rowAt t p) p (iblk0_apply m c t p) (iblk1_eq m c t) (iblk2_eq m c t) j

/-- The second-layer spikes: point t writes back block t of the specification's second result. -/
theorem flushed6_eq (c : Dev nD) (t : Fin cfg0.N) :
    (dats m 0 c).flushed 6 t = ((cfg0.win 6).blk t).view.read (Elt Ideal)
      (out2 (m ((c : Thread nD τ).loc main_arg0)) (m ((c : Thread nD τ).loc main_arg1)) (m ((c : Thread nD τ).loc main_arg2))
        (m ((c : Thread nD τ).loc main_arg3)) (m ((c : Thread nD τ).loc main_arg4))) := by
  rw [Value.flushed6 m c t]
  unfold out0_6
  rw [View.canon_unit_zero hz]
  simp only [View.ld_unit_zero (S := S256x32) hz, View.ld_unit_zero (S := S32x80) hz, View.ld_unit_zero (S := S1x80) hz,
    View.ld_unit_zero (S := S64x16) hz, View.ld_unit_zero (S := S1x16) hz]
  obtain ⟨-, -, -, -, -, -, -, -, -, -, -, -, e0, e1, -⟩ := idx_facts t
  funext y
  obtain ⟨p, j, rfl⟩ : ∃ (p : Fin 256) (j : Fin 16), y = ix2 p j := ⟨y 0, y 1, eq_ix2 y⟩
  show k0_pay4 (F := Ideal) (iblk m c 0 t) (iblk m c 1 t) (iblk m c 2 t) (iblk m c 3 t) (iblk m c 4 t) (ix2 p j)
    = out2 (m (c.tc.loc main_arg0)) (m (c.tc.loc main_arg1)) (m (c.tc.loc main_arg2)) (m (c.tc.loc main_arg3)) (m (c.tc.loc main_arg4))
        (((cfg0.win 6).blk t).view.emb (ix2 p j))
  have he : ((cfg0.win 6).blk t).view.emb (ix2 p j) = (ix2 (rowAt t p) j : S262144x16.Idx) := by
    funext a
    apply Fin.ext
    match a with
    | ⟨0, _⟩ => show win0_6.index t 0 * 256 + 1 * p.val = t.val * 256 + p.val; rw [e0]; omega
    | ⟨1, _⟩ => show win0_6.index t 1 * 16 + 1 * j.val = j.val; rw [e1]; omega
  rw [he]
  exact pay4_apply _ _ _ _ _ _ _ _ _ _ (rowAt t p) p (iblk0_apply m c t p) (iblk1_eq m c t) (iblk2_eq m c t)
    (iblk3_eq m c t) (iblk4_eq m c t) j

/-- The output spikes: point t writes back block t of the specification's third result. -/
theorem flushed7_eq (c : Dev nD) (t : Fin cfg0.N) :
    (dats m 0 c).flushed 7 t = ((cfg0.win 7).blk t).view.read (Elt Ideal)
      (out3 (m ((c : Thread nD τ).loc main_arg0)) (m ((c : Thread nD τ).loc main_arg1)) (m ((c : Thread nD τ).loc main_arg2))
        (m ((c : Thread nD τ).loc main_arg3)) (m ((c : Thread nD τ).loc main_arg4))) := by
  rw [Value.flushed7 m c t]
  unfold out0_7
  rw [View.canon_unit_zero hz]
  simp only [View.ld_unit_zero (S := S256x32) hz, View.ld_unit_zero (S := S32x80) hz, View.ld_unit_zero (S := S1x80) hz,
    View.ld_unit_zero (S := S64x16) hz, View.ld_unit_zero (S := S1x16) hz]
  obtain ⟨-, -, -, -, -, -, -, -, -, -, -, -, -, -, e0, e1⟩ := idx_facts t
  funext y
  obtain ⟨p, j, rfl⟩ : ∃ (p : Fin 256) (j : Fin 16), y = ix2 p j := ⟨y 0, y 1, eq_ix2 y⟩
  show k0_pay5 (F := Ideal) (iblk m c 0 t) (iblk m c 1 t) (iblk m c 2 t) (iblk m c 3 t) (iblk m c 4 t) (ix2 p j)
    = out3 (m (c.tc.loc main_arg0)) (m (c.tc.loc main_arg1)) (m (c.tc.loc main_arg2)) (m (c.tc.loc main_arg3)) (m (c.tc.loc main_arg4))
        (((cfg0.win 7).blk t).view.emb (ix2 p j))
  have he : ((cfg0.win 7).blk t).view.emb (ix2 p j) = (ix2 (rowAt t p) j : S262144x16.Idx) := by
    funext a
    apply Fin.ext
    match a with
    | ⟨0, _⟩ => show win0_7.index t 0 * 256 + 1 * p.val = t.val * 256 + p.val; rw [e0]; omega
    | ⟨1, _⟩ => show win0_7.index t 1 * 16 + 1 * j.val = j.val; rw [e1]; omega
  rw [he]
  exact pay5_apply _ _ _ _ _ _ _ _ _ _ (rowAt t p) p (iblk0_apply m c t p) (iblk1_eq m c t) (iblk2_eq m c t)
    (iblk3_eq m c t) (iblk4_eq m c t) j

/-! ## The blocks cover the arrays -/

/-- An index of result 1 lies in point t's block iff each coordinate lies in the block's range on its axis. -/
theorem mem_blk5 (t : Fin cfg0.N) (i : S262144x64.Idx) :
    i ∈ ((cfg0.win 5).blk t).view.set ↔ ∀ a : Fin 2, win0_5.index t a * S256x64.size a ≤ (i a).val
      ∧ (i a).val < win0_5.index t a * S256x64.size a + S256x64.size a := by
  show i ∈ ((View.whole main_v0_0).slice (win0_5.rect t)).set ↔ _
  rw [View.set_slice_whole, Rect.mem_set_unit]
  exact Iff.rfl

/-- Every index of result 1 lies in some point's block: row n in the block of point n / 256. -/
theorem cover5 (i : S262144x64.Idx) :
    ∃ t : Fin cfg0.N, (cfg0.win 5).flush t = true ∧ i ∈ ((cfg0.win 5).blk t).view.set := by
  have hi0 : (i 0).val < 262144 := (i 0).isLt
  have hi1 : (i 1).val < 64 := (i 1).isLt
  obtain ⟨t, ht⟩ : ∃ t : Fin cfg0.N, t.val = (i 0).val / 256 :=
    ⟨⟨(i 0).val / 256, by rw [show cfg0.N = 1024 from N_0]; omega⟩, rfl⟩
  have e0 : win0_5.index t (0 : Fin 2) = t.val := (idx_facts t).2.2.2.2.2.2.2.2.2.2.1
  have e1 : win0_5.index t (1 : Fin 2) = 0 := (idx_facts t).2.2.2.2.2.2.2.2.2.2.2.1
  refine ⟨t, flush0_5 t, ?_⟩
  rw [mem_blk5]
  intro a
  match a with
  | ⟨0, _⟩ =>
    show win0_5.index t (0 : Fin 2) * 256 ≤ (i 0).val ∧ (i 0).val < win0_5.index t (0 : Fin 2) * 256 + 256
    rw [e0, ht]; omega
  | ⟨1, _⟩ =>
    show win0_5.index t (1 : Fin 2) * 64 ≤ (i 1).val ∧ (i 1).val < win0_5.index t (1 : Fin 2) * 64 + 64
    rw [e1]; omega

/-- An index of result 2 lies in point t's block iff each coordinate lies in the block's range on its axis. -/
theorem mem_blk6 (t : Fin cfg0.N) (i : S262144x16.Idx) :
    i ∈ ((cfg0.win 6).blk t).view.set ↔ ∀ a : Fin 2, win0_6.index t a * S256x16.size a ≤ (i a).val
      ∧ (i a).val < win0_6.index t a * S256x16.size a + S256x16.size a := by
  show i ∈ ((View.whole main_v0_1).slice (win0_6.rect t)).set ↔ _
  rw [View.set_slice_whole, Rect.mem_set_unit]
  exact Iff.rfl

/-- Every index of result 2 lies in some point's block: row n in the block of point n / 256. -/
theorem cover6 (i : S262144x16.Idx) :
    ∃ t : Fin cfg0.N, (cfg0.win 6).flush t = true ∧ i ∈ ((cfg0.win 6).blk t).view.set := by
  have hi0 : (i 0).val < 262144 := (i 0).isLt
  have hi1 : (i 1).val < 16 := (i 1).isLt
  obtain ⟨t, ht⟩ : ∃ t : Fin cfg0.N, t.val = (i 0).val / 256 :=
    ⟨⟨(i 0).val / 256, by rw [show cfg0.N = 1024 from N_0]; omega⟩, rfl⟩
  have e0 : win0_6.index t (0 : Fin 2) = t.val := (idx_facts t).2.2.2.2.2.2.2.2.2.2.2.2.1
  have e1 : win0_6.index t (1 : Fin 2) = 0 := (idx_facts t).2.2.2.2.2.2.2.2.2.2.2.2.2.1
  refine ⟨t, flush0_6 t, ?_⟩
  rw [mem_blk6]
  intro a
  match a with
  | ⟨0, _⟩ =>
    show win0_6.index t (0 : Fin 2) * 256 ≤ (i 0).val ∧ (i 0).val < win0_6.index t (0 : Fin 2) * 256 + 256
    rw [e0, ht]; omega
  | ⟨1, _⟩ =>
    show win0_6.index t (1 : Fin 2) * 16 ≤ (i 1).val ∧ (i 1).val < win0_6.index t (1 : Fin 2) * 16 + 16
    rw [e1]; omega

/-- An index of result 3 lies in point t's block iff each coordinate lies in the block's range on its axis. -/
theorem mem_blk7 (t : Fin cfg0.N) (i : S262144x16.Idx) :
    i ∈ ((cfg0.win 7).blk t).view.set ↔ ∀ a : Fin 2, win0_7.index t a * S256x16.size a ≤ (i a).val
      ∧ (i a).val < win0_7.index t a * S256x16.size a + S256x16.size a := by
  show i ∈ ((View.whole main_v0_2).slice (win0_7.rect t)).set ↔ _
  rw [View.set_slice_whole, Rect.mem_set_unit]
  exact Iff.rfl

/-- Every index of result 3 lies in some point's block: row n in the block of point n / 256. -/
theorem cover7 (i : S262144x16.Idx) :
    ∃ t : Fin cfg0.N, (cfg0.win 7).flush t = true ∧ i ∈ ((cfg0.win 7).blk t).view.set := by
  have hi0 : (i 0).val < 262144 := (i 0).isLt
  have hi1 : (i 1).val < 16 := (i 1).isLt
  obtain ⟨t, ht⟩ : ∃ t : Fin cfg0.N, t.val = (i 0).val / 256 :=
    ⟨⟨(i 0).val / 256, by rw [show cfg0.N = 1024 from N_0]; omega⟩, rfl⟩
  have e0 : win0_7.index t (0 : Fin 2) = t.val := (idx_facts t).2.2.2.2.2.2.2.2.2.2.2.2.2.2.1
  have e1 : win0_7.index t (1 : Fin 2) = 0 := (idx_facts t).2.2.2.2.2.2.2.2.2.2.2.2.2.2.2
  refine ⟨t, flush0_7 t, ?_⟩
  rw [mem_blk7]
  intro a
  match a with
  | ⟨0, _⟩ =>
    show win0_7.index t (0 : Fin 2) * 256 ≤ (i 0).val ∧ (i 0).val < win0_7.index t (0 : Fin 2) * 256 + 256
    rw [e0, ht]; omega
  | ⟨1, _⟩ =>
    show win0_7.index t (1 : Fin 2) * 16 ≤ (i 1).val ∧ (i 1).val < win0_7.index t (1 : Fin 2) * 16 + 16
    rw [e1]; omega

/-! ## The three result arrays after the run -/

/-- The first result ends holding the specification's interneuron spikes. -/
theorem final5 (c : Dev nD) : (dats m 0 c).arrAt 5 cfg0.N = out1 (m ((c.tc : Thread nD τ).loc main_arg0)) (m ((c.tc : Thread nD τ).loc main_arg1)) (m ((c.tc : Thread nD τ).loc main_arg2)) :=
  (dats m 0 c).arrAt_eq_of_cover 5 _ (fun t _ => flushed5_eq m c t) cover5

/-- The second result ends holding the specification's second-layer spikes. -/
theorem final6 (c : Dev nD) : (dats m 0 c).arrAt 6 cfg0.N = out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (dats m 0 c).arrAt_eq_of_cover 6 _ (fun t _ => flushed6_eq m c t) cover6

/-- The third result ends holding the specification's output spikes. -/
theorem final7 (c : Dev nD) : (dats m 0 c).arrAt 7 cfg0.N = out3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (dats m 0 c).arrAt_eq_of_cover 7 _ (fun t _ => flushed7_eq m c t) cover7

/-! ## The run -/

/-- Every run of the plain network ends with its three results at the specification's three arrays of the arguments,
    the arguments unchanged. -/
theorem run : θ_run (Cert.ReferenceIdeal.defs (F := Ideal)) (onTc (τ := Cert.ReferenceIdeal.τ) (Cert.ReferenceIdeal.main (F := Ideal))) ⟨m, fun _ => 0, ρ⟩
    (fun r => ∀ c : Dev Cert.ReferenceIdeal.nD,
      r.2.mem ((c.tc : Thread Cert.ReferenceIdeal.nD Cert.ReferenceIdeal.τ).loc Cert.ReferenceIdeal.main_v0_0)
          = Cert.Spike.out1 (m ((c.tc : Thread nD τ).loc main_arg0)) (m ((c.tc : Thread nD τ).loc main_arg1)) (m ((c.tc : Thread nD τ).loc main_arg2))
      ∧ r.2.mem ((c.tc : Thread Cert.ReferenceIdeal.nD Cert.ReferenceIdeal.τ).loc Cert.ReferenceIdeal.main_v0_1)
          = Cert.Spike.out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread Cert.ReferenceIdeal.nD Cert.ReferenceIdeal.τ).loc Cert.ReferenceIdeal.main_v0_2)
          = Cert.Spike.out3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run defs _ _).mono (fun r h c => ⟨(h c).1.trans (final5 m c), (h c).2.1.trans (final6 m c),
      (h c).2.2.1.trans (final7 m c), (h c).2.2.2⟩)
    (Value.run_blocks m ρ)

end Cert.Spike.Ref

end
-- ==== Proof.lean ====
/-
  A spiking network with two layers and a direct path, computed two ways.

  The reference runs the network on blocks of 256 input rows: `h = x · W13 + b13` (80 columns), the interneuron spikes
  `[h₁ > 0]` from its first 64 columns, `g = spikes · W2 + b2`, and the results `[h₁ > 0]`, `[g > 0]`, `[g + h₃ > 0]`
  with `h₃` the last 16 columns of `h`.

  The kernel packs eight consecutive input rows into one row of 256 lanes, and multiplies the packed rows by
  block-diagonal weights — eight copies of each weight matrix down the diagonal — so that lane group `q` of a packed
  row goes through the network exactly as input row `8 r + q` does: the terms that meet an off-diagonal block are
  products with zero, and over the extended reals a product with zero is zero and a sum's zero terms drop out. The
  three packed results are cast back to one row per input row.

  Both programs therefore end at the same three functions of the five arguments (`Cert.Spike.out1`, `out2`, `out3`),
  index by index over the extended reals; no finiteness of the inputs is used. The three frames are the generated ones,
  and the idealized kernel is the kernel's own text read at the ideal instance (no rewrite was applied).
-/
import proofs.«156992_g2000306523512037_pallasbulk_875_3_alg».proof.Defs
import proofs.«156992_g2000306523512037_pallasbulk_875_3_alg».proof.Proof.Gen.Kernel
import proofs.«156992_g2000306523512037_pallasbulk_875_3_alg».proof.Proof.Gen.Kernel.Frame
import proofs.«156992_g2000306523512037_pallasbulk_875_3_alg».proof.Proof.Gen.KernelIdeal
import proofs.«156992_g2000306523512037_pallasbulk_875_3_alg».proof.Proof.Gen.KernelIdeal.Frame
import proofs.«156992_g2000306523512037_pallasbulk_875_3_alg».proof.Proof.Gen.ReferenceIdeal
import proofs.«156992_g2000306523512037_pallasbulk_875_3_alg».proof.Proof.Gen.ReferenceIdeal.Frame
import proofs.«156992_g2000306523512037_pallasbulk_875_3_alg».proof.Proof.Gen.Pre_finite_inputs
import proofs.«156992_g2000306523512037_pallasbulk_875_3_alg».proof.Proof.KerHost
import proofs.«156992_g2000306523512037_pallasbulk_875_3_alg».proof.Proof.KerRun
import proofs.«156992_g2000306523512037_pallasbulk_875_3_alg».proof.Proof.RefSide
import Idealize.ShloMosaic.Adequacy
import Idealize.ShloMosaic.Init

noncomputable section

namespace Cert.Proof

open Idealize.ShloMosaic Idealize.ShloMosaic.TcCoe Idealize.SL.Sem Cert.Spike

/-- What the host lines before the kernel's region leave in the five staged arrays: the packed input, the
    block-diagonal weights and the repeated bias rows. -/
theorem hostFacts (m : (ℓ : Loc Cert.KernelIdeal.nD Cert.KernelIdeal.τ Cert.KernelIdeal.sig) → Buf (Elt Ideal) ℓ)
    (c : Dev Cert.KernelIdeal.nD) : Cert.Spike.KerValue.HostFacts m c :=
  ⟨Cert.Spike.KerHost.V_x m c, Cert.Spike.KerHost.V_wa_lo m c, Cert.Spike.KerHost.V_wa_hi m c,
    Cert.Spike.KerHost.V_ba_lo m c, Cert.Spike.KerHost.V_ba_hi m c, Cert.Spike.KerHost.V_wb m c, Cert.Spike.KerHost.V_bb m c⟩

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The ideal pass rewrote nothing: there is no conjunct to prove. -/
theorem preserves : Cert.preserves_Kernel_KernelIdeal := trivial

/-- Both idealized programs end with the network's three arrays of the arguments, which agree. -/
theorem algebraic : Cert.algebraic_KernelIdeal_ReferenceIdeal := by
  intro m ρ m' ρ' _ hagree
  refine ⟨_, _, _, Cert.Spike.KerRun.run m ρ (hostFacts m), ?_⟩
  refine (θ_run Cert.ReferenceIdeal.defs _ _).mono (fun r h c => ?_) (Cert.Spike.Ref.run m' ρ')
  obtain ⟨h0, h1, h2, h3, h4, h5, h6, h7⟩ := h c
  obtain ⟨e0, e1, e2, e3, e4⟩ := hagree c
  refine ⟨?_, ?_, ?_, h3, h4, h5, h6, h7⟩
  · rw [h0, e0, e1, e2]
  · rw [h1, e0, e1, e2, e3, e4]
  · rw [h2, e0, e1, e2, e3, e4]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
